-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S800000 32) (main_arg2 : IVec S800000 32) (main_arg3 : FVec F S128x128 .f32) (main_arg4 : FVec F S128 .f32) (main_arg5 : FVec F S128x64 .f32) (main_arg6 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S1x128 : Shape := ⟨2, ![1, 128]⟩
abbrev S1x64 : Shape := ⟨2, ![1, 64]⟩
abbrev S50000x1 : Shape := ⟨2, ![50000, 1]⟩
abbrev S800000x128 : Shape := ⟨2, ![800000, 128]⟩
abbrev S50000x2 : Shape := ⟨2, ![50000, 2]⟩
abbrev S50000x64 : Shape := ⟨2, ![50000, 64]⟩
abbrev S5000x128 : Shape := ⟨2, ![5000, 128]⟩
abbrev S5000x2 : Shape := ⟨2, ![5000, 2]⟩
abbrev S5000x64 : Shape := ⟨2, ![5000, 64]⟩
abbrev S5000x1 : Shape := ⟨2, ![5000, 1]⟩
abbrev S800000x64 : Shape := ⟨2, ![800000, 64]⟩
abbrev S5000 : Shape := ⟨1, ![5000]⟩

abbrev nBuf : Space → Nat
  | .hbm => 72
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S1x128, .f32⟩
  | .hbm, ⟨32, _⟩ => ⟨S1x64, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S50000x128, .bf16⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .bf16⟩
  | .hbm, ⟨46, _⟩ => ⟨S800000x128, .f32⟩
  | .hbm, ⟨47, _⟩ => ⟨S_, .f32⟩
  | .hbm, ⟨48, _⟩ => ⟨S50000x128, .f32⟩
  | .hbm, ⟨49, _⟩ => ⟨S800000x1, .i32⟩
  | .hbm, ⟨50, _⟩ => ⟨S50000x128, .f32⟩
  | .hbm, ⟨51, _⟩ => ⟨S50000x1, .f32⟩
  | .hbm, ⟨52, _⟩ => ⟨S50000x1, .f32⟩
  | .hbm, ⟨53, _⟩ => ⟨S50000x2, .f32⟩
  | .hbm, ⟨54, _⟩ => ⟨S50000x64, .f32⟩
  | .hbm, ⟨55, _⟩ => ⟨S50000x64, .bf16⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x64, .bf16⟩
  | .hbm, ⟨65, _⟩ => ⟨S800000x64, .f32⟩
  | .hbm, ⟨66, _⟩ => ⟨S_, .f32⟩
  | .hbm, ⟨67, _⟩ => ⟨S50000x64, .f32⟩
  | .hbm, ⟨68, _⟩ => ⟨S800000x1, .i32⟩
  | .hbm, ⟨69, _⟩ => ⟨S50000x64, .f32⟩
  | .hbm, ⟨70, _⟩ => ⟨S50000x1, .f32⟩
  | .hbm, ⟨71, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x2, .f32⟩
  | .local _ .vmem, ⟨5, _⟩ => ⟨S5000x2, .f32⟩
  | .local _ .vmem, ⟨6, _⟩ => ⟨S128x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x1, .f32⟩
  | .local _ .vmem, ⟨12, _⟩ => ⟨S5000x1, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_cst_4 : Ref sig .tc := ⟨.hbm, 25, rfl⟩
abbrev main_v9 : Ref sig .tc := ⟨.hbm, 26, rfl⟩
abbrev main_v10 : Ref sig .tc := ⟨.hbm, 27, rfl⟩
abbrev main_cst_5 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c : Ref sig .tc := ⟨.hbm, 37, rfl⟩
abbrev main_v19 : Ref sig .tc := ⟨.hbm, 38, rfl⟩
abbrev main_v20 : Ref sig .tc := ⟨.hbm, 39, rfl⟩
abbrev main_c_6 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_7 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_c_9 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_10 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S128_S1x128 : S128.ShapeCasts S1x128
  shapeCasts_S64_S1x64 : S64.ShapeCasts S1x64
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bitsLt_bf16_f32 : FTy.bits .bf16 < FTy.bits .f32
  bcast_S_S50000x128 : S_.BroadcastsInDim S50000x128 (![] : Fin 0 → Fin S50000x128.rank)
  concatenates_S50000x1_S50000x1_S50000x2_d1 : Shape.Concatenates [S50000x1, S50000x1] S50000x2 1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S5000x2_S5000x2_0_0 : ∀ a, (![0, 0] : Fin 2 → Nat) a + S5000x2.size a ≤ S5000x2.size a
  h_S5000x2 : 0 < S5000x2.numel
  shapeCasts_S5000x2_S5000x2 : S5000x2.ShapeCasts S5000x2
  slices_S5000x2_o0_0_S5000x1 : S5000x2.Slices ![0, 0] S5000x1
  slices_S5000x2_o0_1_S5000x1 : S5000x2.Slices ![0, 1] S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  shapeCasts_S50000_S50000x1 : S50000.ShapeCasts S50000x1
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x2.size a ≤ S50000x2.size a
  hwx0_3 : ∀ i : grid0.Coords, EltTy.bits .f32 = 32 ∨ (Rect.block (s := S50000x2) S5000x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_v29) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S5000x2.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 119
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x128, .f32⟩
  | .hbm, ⟨30, _⟩ => ⟨S50000x128, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S50000, .f32⟩
  | .hbm, ⟨47, _⟩ => ⟨S50000, .f32⟩
  | .hbm, ⟨48, _⟩ => ⟨S50000x1, .f32⟩
  | .hbm, ⟨49, _⟩ => ⟨S50000x128, .f32⟩
  | .hbm, ⟨50, _⟩ => ⟨S50000x128, .f32⟩
  | .hbm, ⟨51, _⟩ => ⟨S1x128, .f32⟩
  | .hbm, ⟨52, _⟩ => ⟨S50000x128, .f32⟩
  | .hbm, ⟨53, _⟩ => ⟨S50000x128, .f32⟩
  | .hbm, ⟨54, _⟩ => ⟨S_, .f32⟩
  | .hbm, ⟨55, _⟩ => ⟨S50000x128, .f32⟩
  | .hbm, ⟨56, _⟩ => ⟨S50000x128, .f32⟩
  | .hbm, ⟨57, _⟩ => ⟨S_, .f32⟩
  | .hbm, ⟨58, _⟩ => ⟨S800000, .f32⟩
  | .hbm, ⟨59, _⟩ => ⟨S_, .f32⟩
  | .hbm, ⟨60, _⟩ => ⟨S50000, .f32⟩
  | .hbm, ⟨61, _⟩ => ⟨S800000x1, .i32⟩
  | .hbm, ⟨62, _⟩ => ⟨S50000, .f32⟩
  | .hbm, ⟨63, _⟩ => ⟨S_, .f32⟩
  | .hbm, ⟨64, _⟩ => ⟨S_, .f32⟩
  | .hbm, ⟨65, _⟩ => ⟨S50000, .f32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S800000x1, .i32⟩
  | .hbm, ⟨70, _⟩ => ⟨S50000, .f32⟩
  | .hbm, ⟨71, _⟩ => ⟨S_, .f32⟩
  | .hbm, ⟨72, _⟩ => ⟨S_, .f32⟩
  | .hbm, ⟨73, _⟩ => ⟨S50000, .f32⟩
  | .hbm, ⟨74, _⟩ => ⟨S50000, .f32⟩
  | .hbm, ⟨75, _⟩ => ⟨S_, .f32⟩
  | .hbm, ⟨76, _⟩ => ⟨S50000, .f32⟩
  | .hbm, ⟨77, _⟩ => ⟨S50000, .f32⟩
  | .hbm, ⟨78, _⟩ => ⟨S50000x1, .f32⟩
  | .hbm, ⟨79, _⟩ => ⟨S50000x128, .f32⟩
  | .hbm, ⟨80, _⟩ => ⟨S50000x128, .f32⟩
  | .hbm, ⟨81, _⟩ => ⟨S50000x64, .f32⟩
  | .hbm, ⟨82, _⟩ => ⟨S_, .i32⟩
  | .hbm, ⟨83, _⟩ => ⟨S800000, .i32⟩
  | .hbm, ⟨84, _⟩ => ⟨S800000, .i1⟩
  | .hbm, ⟨85, _⟩ => ⟨S_, .i32⟩
  | .hbm, ⟨86, _⟩ => ⟨S800000, .i32⟩
  | .hbm, ⟨87, _⟩ => ⟨S800000, .i32⟩
  | .hbm, ⟨88, _⟩ => ⟨S800000, .i32⟩
  | .hbm, ⟨89, _⟩ => ⟨S800000x1, .i32⟩
  | .hbm, ⟨90, _⟩ => ⟨S800000x64, .f32⟩
  | .hbm, ⟨91, _⟩ => ⟨S_, .f32⟩
  | .hbm, ⟨92, _⟩ => ⟨S50000x64, .f32⟩
  | .hbm, ⟨93, _⟩ => ⟨S800000x1, .i32⟩
  | .hbm, ⟨94, _⟩ => ⟨S50000x64, .f32⟩
  | .hbm, ⟨95, _⟩ => ⟨S_, .f32⟩
  | .hbm, ⟨96, _⟩ => ⟨S50000, .f32⟩
  | .hbm, ⟨97, _⟩ => ⟨S50000, .f32⟩
  | .hbm, ⟨98, _⟩ => ⟨S50000x1, .f32⟩
  | .hbm, ⟨99, _⟩ => ⟨S50000x64, .f32⟩
  | .hbm, ⟨100, _⟩ => ⟨S50000x64, .f32⟩
  | .hbm, ⟨101, _⟩ => ⟨S1x64, .f32⟩
  | .hbm, ⟨102, _⟩ => ⟨S50000x64, .f32⟩
  | .hbm, ⟨103, _⟩ => ⟨S50000x64, .f32⟩
  | .hbm, ⟨104, _⟩ => ⟨S_, .f32⟩
  | .hbm, ⟨105, _⟩ => ⟨S50000, .f32⟩
  | .hbm, ⟨106, _⟩ => ⟨S_, .f32⟩
  | .hbm, ⟨107, _⟩ => ⟨S50000, .f32⟩
  | .hbm, ⟨108, _⟩ => ⟨S50000, .f32⟩
  | .hbm, ⟨109, _⟩ => ⟨S50000x1, .f32⟩
  | .hbm, ⟨110, _⟩ => ⟨S50000x64, .f32⟩
  | .hbm, ⟨111, _⟩ => ⟨S50000x64, .f32⟩
  | .hbm, ⟨112, _⟩ => ⟨S50000x64, .f32⟩
  | .hbm, ⟨113, _⟩ => ⟨S_, .f32⟩
  | .hbm, ⟨114, _⟩ => ⟨S50000, .f32⟩
  | .hbm, ⟨115, _⟩ => ⟨S50000x1, .f32⟩
  | .hbm, ⟨116, _⟩ => ⟨S50000x1, .f32⟩
  | .hbm, ⟨117, _⟩ => ⟨S50000x64, .f32⟩
  | .hbm, ⟨118, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_cst_4 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_6 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_7 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_call2_cst : Ref sig .tc := ⟨.hbm, 54, rfl⟩
abbrev main_call2_v0 : Ref sig .tc := ⟨.hbm, 55, rfl⟩
abbrev main_v33 : Ref sig .tc := ⟨.hbm, 56, rfl⟩
abbrev main_cst_8 : Ref sig .tc := ⟨.hbm, 57, rfl⟩
abbrev main_v34 : Ref sig .tc := ⟨.hbm, 58, rfl⟩
abbrev main_cst_9 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_10 : Ref sig .tc := ⟨.hbm, 63, rfl⟩
abbrev main_call3_v0 : Ref sig .tc := ⟨.hbm, 64, rfl⟩
abbrev main_call3_v1 : Ref sig .tc := ⟨.hbm, 65, rfl⟩
abbrev main_v38 : Ref sig .tc := ⟨.hbm, 66, rfl⟩
abbrev main_cst_11 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_12 : Ref sig .tc := ⟨.hbm, 71, rfl⟩
abbrev main_call4_v0 : Ref sig .tc := ⟨.hbm, 72, rfl⟩
abbrev main_call4_v1 : Ref sig .tc := ⟨.hbm, 73, rfl⟩
abbrev main_v42 : Ref sig .tc := ⟨.hbm, 74, rfl⟩
abbrev main_cst_13 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_c_14 : Ref sig .tc := ⟨.hbm, 82, rfl⟩
abbrev main_v49 : Ref sig .tc := ⟨.hbm, 83, rfl⟩
abbrev main_v50 : Ref sig .tc := ⟨.hbm, 84, rfl⟩
abbrev main_c_15 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_16 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_17 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_call5_cst : Ref sig .tc := ⟨.hbm, 104, rfl⟩
abbrev main_call5_v0 : Ref sig .tc := ⟨.hbm, 105, rfl⟩
abbrev main_call5_cst_0 : Ref sig .tc := ⟨.hbm, 106, rfl⟩
abbrev main_call5_v1 : Ref sig .tc := ⟨.hbm, 107, rfl⟩
abbrev main_call5_v2 : Ref sig .tc := ⟨.hbm, 108, rfl⟩
abbrev main_call5_v3 : Ref sig .tc := ⟨.hbm, 109, rfl⟩
abbrev main_call5_v4 : Ref sig .tc := ⟨.hbm, 110, rfl⟩
abbrev main_call5_v5 : Ref sig .tc := ⟨.hbm, 111, rfl⟩
abbrev main_call5_v6 : Ref sig .tc := ⟨.hbm, 112, rfl⟩
abbrev main_call5_cst_1 : Ref sig .tc := ⟨.hbm, 113, rfl⟩
abbrev main_call5_v7 : Ref sig .tc := ⟨.hbm, 114, rfl⟩
abbrev main_call5_v8 : Ref sig .tc := ⟨.hbm, 115, rfl⟩
abbrev main_call5_v9 : Ref sig .tc := ⟨.hbm, 116, rfl⟩
abbrev main_call5_v10 : Ref sig .tc := ⟨.hbm, 117, rfl⟩
abbrev main_v67 : Ref sig .tc := ⟨.hbm, 118, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.LibHostStretches.lean ====
/-
  A straight line of host operations read in stretches, and a value carried through an outlined call.

  * `after_append`, `after_split`: what a line of host operations leaves (the fold `StableHlo.after` of the operations
    over the contents it starts from) is what its last part leaves from what its first part leaves. So a long line is
    read a stretch at a time, each stretch over an ARBITRARY starting valuation: the terms stay small, and values
    several later operations consume are named once (at the stretch's start) instead of being copied into every use.
  * `ofBuf_toBuf`: the operations of an outlined function (`func.call`) read and write their operands through typed
    references, a transport along the buffer's type equation each way. A value written that way and read back at
    its own type is the value. Rewriting with it first leaves a line with outlined calls comparable, by reading,
    with the same operations written without the calls.

  General in the topology, the reference signature and the element values.
-/
import Idealize.ShloMosaic.Lib.StableHlo.Run

namespace Cert.HostLine

open Idealize.ShloMosaic Idealize.ShloMosaic.StableHlo

variable {τ : Topo} {sig : RefSig} {Val : EltTy → Type}

/-- Two stretches run one after the other are their concatenation run as one. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A line of operations run as its first `n` and then the rest. -/
theorem after_split (n : Nat) (l : List (HloOp τ sig Val)) (V : Valuation τ sig Val) :
    after l V = after (l.drop n) (after (l.take n) V) := by
  rw [← after_append, List.take_append_drop]

/-- A value written to a typed reference's buffer and read back at the value's type is the value. -/
theorem ofBuf_toBuf {T : BufTy} (x : TRef sig T) (v : T.Contents Val) : x.ofBuf (x.toBuf v) = v := by
  obtain ⟨r, te, od, us⟩ := x
  subst te
  rfl

end Cert.HostLine
-- ==== Proof.ReferenceStretches.lean ====
/-
  The reference program's line of operations, read a stretch at a time: the first four stretches.

  The reference is a straight line of 112 host operations. What a buffer holds after the line is the fold of the
  operations' results over the launch contents. The line is cut in
  five stretches — up to the scaled features; up to the first layer's rectified output; up to the second layer's
  product; up to the scaled and biased second aggregation; the row-wise log-softmax — and each value a later stretch
  consumes is named once, where its stretch ends, by its stage (the function of the arguments that the stage-by-stage
  reading of the program gives it). A stretch's results are computed over an ARBITRARY starting valuation, so the
  terms stay small: each stage is its operation applied to earlier stages.
-/
import proofs.«153941_j9234179686680_2_alg».proof.Proof.RefRead
import proofs.«153941_j9234179686680_2_alg».proof.Proof.LibHostStretches
import Idealize.ShloMosaic.Lib.StableHlo.Run

set_option maxRecDepth 8192

noncomputable section

namespace Cert.ReferenceIdeal.Stretches

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo Cert.HostLine

variable {F : FTy → Type} [FloatOps F]
variable (V : Valuation τ sig (Elt F))

/-- What is left of the line after the first 24, 50, 75 and 97 operations. -/
abbrev rest1 : List (HloOp τ sig (Elt F)) := (ops (F := F)).drop 24
abbrev rest2 : List (HloOp τ sig (Elt F)) := (rest1 (F := F)).drop 26
abbrev rest3 : List (HloOp τ sig (Elt F)) := (rest2 (F := F)).drop 25
abbrev rest4 : List (HloOp τ sig (Elt F)) := (rest3 (F := F)).drop 22

/-- The buffers after each stretch. -/
def U1 : Valuation τ sig (Elt F) := after ((ops (F := F)).take 24) V
def U2 : Valuation τ sig (Elt F) := after ((rest1 (F := F)).take 26) (U1 V)
def U3 : Valuation τ sig (Elt F) := after ((rest2 (F := F)).take 25) (U2 V)
def U4 : Valuation τ sig (Elt F) := after ((rest3 (F := F)).take 22) (U3 V)
def U5 : Valuation τ sig (Elt F) := after (rest4 (F := F)) (U4 V)

/-- The whole line is the five stretches one after the other. -/
theorem after_ops : after (ops (F := F)) V = U5 V :=
  (after_split 24 ops V).trans ((after_split 26 rest1 (U1 V)).trans ((after_split 25 rest2 (U2 V)).trans
    (after_split 22 rest3 (U3 V))))

/-- Unfold a stretch to its literal operations and compute each result. -/
macro "stretch_read" : tactic =>
  `(tactic| (simp only [ops, rest1, rest2, rest3, rest4, List.take_succ_cons, List.take_zero, List.drop_succ_cons, List.drop_zero]
             after_results_simp))

local notation "a0" => V (Proc.devRef Proc.tc main_arg0)
local notation "a1" => V (Proc.devRef Proc.tc main_arg1)
local notation "a2" => V (Proc.devRef Proc.tc main_arg2)
local notation "a3" => V (Proc.devRef Proc.tc main_arg3)
local notation "a4" => V (Proc.devRef Proc.tc main_arg4)
local notation "a5" => V (Proc.devRef Proc.tc main_arg5)
local notation "a6" => V (Proc.devRef Proc.tc main_arg6)

/-! ## The first stretch: the degrees and the scaled features -/

theorem U1_a1 : U1 V (Proc.devRef .tc main_arg1) = a1 := by unfold U1; stretch_read <;> rfl
theorem U1_a2 : U1 V (Proc.devRef .tc main_arg2) = a2 := by unfold U1; stretch_read <;> rfl
theorem U1_a3 : U1 V (Proc.devRef .tc main_arg3) = a3 := by unfold U1; stretch_read <;> rfl
theorem U1_a4 : U1 V (Proc.devRef .tc main_arg4) = a4 := by unfold U1; stretch_read <;> rfl
theorem U1_a5 : U1 V (Proc.devRef .tc main_arg5) = a5 := by unfold U1; stretch_read <;> rfl
theorem U1_a6 : U1 V (Proc.devRef .tc main_arg6) = a6 := by unfold U1; stretch_read <;> rfl
set_option maxHeartbeats 4000000 in
theorem U1_v8 : U1 V (Proc.devRef .tc main_v8) = val_main_v8 (F := F) a2 := by unfold U1; stretch_read <;> rfl
set_option maxHeartbeats 4000000 in
theorem U1_v13 : U1 V (Proc.devRef .tc main_v13) = val_main_v13 (F := F) a0 a1 := by unfold U1; stretch_read <;> rfl

/-! ## The second stretch: gather, aggregate, first layer -/

theorem U2_a1 : U2 V (Proc.devRef .tc main_arg1) = a1 := by unfold U2; stretch_read; exact U1_a1 V
theorem U2_a2 : U2 V (Proc.devRef .tc main_arg2) = a2 := by unfold U2; stretch_read; exact U1_a2 V
theorem U2_a5 : U2 V (Proc.devRef .tc main_arg5) = a5 := by unfold U2; stretch_read; exact U1_a5 V
theorem U2_a6 : U2 V (Proc.devRef .tc main_arg6) = a6 := by unfold U2; stretch_read; exact U1_a6 V
set_option maxHeartbeats 4000000 in
theorem U2_v33 : U2 V (Proc.devRef .tc main_v33) = val_main_v33 (F := F) a0 a1 a2 a3 a4 := by
  unfold U2; stretch_read
  rw [U1_a1 V, U1_a2 V, U1_a3 V, U1_a4 V, U1_v8 V, U1_v13 V]
  rfl

/-! ## The third stretch: the degrees again, the second layer's product -/

theorem U3_a1 : U3 V (Proc.devRef .tc main_arg1) = a1 := by unfold U3; stretch_read; exact U2_a1 V
theorem U3_a2 : U3 V (Proc.devRef .tc main_arg2) = a2 := by unfold U3; stretch_read; exact U2_a2 V
theorem U3_a6 : U3 V (Proc.devRef .tc main_arg6) = a6 := by unfold U3; stretch_read; exact U2_a6 V
set_option maxHeartbeats 4000000 in
theorem U3_v42 : U3 V (Proc.devRef .tc main_v42) = val_main_v42 (F := F) a2 := by
  unfold U3; stretch_read
  rw [U2_a2 V]
  rfl
set_option maxHeartbeats 4000000 in
theorem U3_v48 : U3 V (Proc.devRef .tc main_v48) = val_main_v48 (F := F) a0 a1 a2 a3 a4 a5 := by
  unfold U3; stretch_read
  rw [U2_a1 V, U2_a5 V, U2_v33 V]
  rfl

/-! ## The fourth stretch: gather, aggregate, scale, bias -/

set_option maxHeartbeats 4000000 in
theorem U4_v66 : U4 V (Proc.devRef .tc main_v66) = val_main_v66 (F := F) a0 a1 a2 a3 a4 a5 a6 := by
  unfold U4; stretch_read
  rw [U3_a1 V, U3_a2 V, U3_a6 V, U3_v42 V, U3_v48 V]
  rfl

end Cert.ReferenceIdeal.Stretches

end
-- ==== Proof.ReferenceRun.lean ====
/-
  The reference program's run: the last stretch of its line of operations (the row-wise log-softmax), the whole line
  as the five stretches one after the other, and the run — every weakly fair execution terminates with the result
  buffer at the last stage of the arguments' launch contents, the arguments unchanged.
-/
import proofs.«153941_j9234179686680_2_alg».proof.Proof.ReferenceStretches

set_option maxRecDepth 8192

noncomputable section

namespace Cert.ReferenceIdeal.Stretches

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo Cert.HostLine

variable {F : FTy → Type} [FloatOps F]
variable (V : Valuation τ sig (Elt F))

local notation "a0" => V (Proc.devRef Proc.tc main_arg0)
local notation "a1" => V (Proc.devRef Proc.tc main_arg1)
local notation "a2" => V (Proc.devRef Proc.tc main_arg2)
local notation "a3" => V (Proc.devRef Proc.tc main_arg3)
local notation "a4" => V (Proc.devRef Proc.tc main_arg4)
local notation "a5" => V (Proc.devRef Proc.tc main_arg5)
local notation "a6" => V (Proc.devRef Proc.tc main_arg6)

/-- Unfold a stretch to its literal operations and compute each result. -/
macro "stretch_read'" : tactic =>
  `(tactic| (simp only [ops, rest1, rest2, rest3, rest4, List.take_succ_cons, List.take_zero, List.drop_succ_cons, List.drop_zero]
             after_results_simp))

/-! ## The fifth stretch: the row-wise log-softmax -/

set_option maxHeartbeats 4000000 in
theorem U5_v67 : U5 V (Proc.devRef .tc main_v67) = val_main_v67 (F := F) a0 a1 a2 a3 a4 a5 a6 := by
  unfold U5; stretch_read'
  rw [U4_v66 V]
  simp only [ofBuf_toBuf]
  rfl

/-- The result buffer after the whole line is the last stage. -/
theorem result_eq : after (ops (F := F)) V (Proc.devRef .tc main_v67) = val_main_v67 (F := F) a0 a1 a2 a3 a4 a5 a6 := by
  rw [after_ops]; exact U5_v67 V

/-- No operation of the line writes an argument's buffer. -/
macro "never_written" : tactic =>
  `(tactic| (refine after_of_forall_not_mem _ _ (List.forall_iff_forall_mem.mp ?_)
             simp only [ops, List.Forall, nullary_writes, unary_writes, binary_writes, ternary_writes, Finset.mem_singleton]
             repeat' apply And.intro
             all_goals exact devRef_ne_of_ne (by decide)))

theorem kept0 : after (ops (F := F)) V (Proc.devRef .tc main_arg0) = a0 := by never_written
theorem kept1 : after (ops (F := F)) V (Proc.devRef .tc main_arg1) = a1 := by never_written
theorem kept2 : after (ops (F := F)) V (Proc.devRef .tc main_arg2) = a2 := by never_written
theorem kept3 : after (ops (F := F)) V (Proc.devRef .tc main_arg3) = a3 := by never_written
theorem kept4 : after (ops (F := F)) V (Proc.devRef .tc main_arg4) = a4 := by never_written
theorem kept5 : after (ops (F := F)) V (Proc.devRef .tc main_arg5) = a5 := by never_written
theorem kept6 : after (ops (F := F)) V (Proc.devRef .tc main_arg6) = a6 := by never_written

/-- THE RUN: every weakly fair execution of the reference terminates with its result at the last stage of the
    arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v67)
        = val_main_v67 (F := F) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v67).trans (result_eq (launchContents m c)),
      (h c main_arg0).trans (kept0 (launchContents m c)),
      (h c main_arg1).trans (kept1 (launchContents m c)),
      (h c main_arg2).trans (kept2 (launchContents m c)),
      (h c main_arg3).trans (kept3 (launchContents m c)),
      (h c main_arg4).trans (kept4 (launchContents m c)),
      (h c main_arg5).trans (kept5 (launchContents m c)),
      (h c main_arg6).trans (kept6 (launchContents m c))⟩)
    (run_seq scopedRefs_eq scopedSems_eq defs main (fun _ => ops) main_eq (fun _ => ops_sub) m ρ)

end Cert.ReferenceIdeal.Stretches

end
-- ==== Proof.KernelRun.lean ====
/-
  The idealized kernel's run, with the result array named.

  The program is two launches of a gridded kernel among stretches of host operations. Its generated frame walks
  the segments from the launch memory and reads, at the end, only the argument arrays. The same walk also leaves the
  result array — the second launch's output window — at the contents the last boundary holds for it: the fold of the
  second launch's write-backs, over the memory the second stretch of host operations leaves, over the first
  launch's write-backs, over the memory the first stretches leave. This module states the run with that buffer
  read as well; the value modules open the fold.
-/
import proofs.«153941_j9234179686680_2_alg».proof.Proof.Gen.KernelIdeal.Frame

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel from `m` terminates, nothing faulting, with the result array at
    what the last boundary of the walk holds for it and the argument arrays as launched. -/
theorem run : θ_run defs (onTc (τ := τ) (main (F := F))) ⟨m, fun _ => 0, ρ⟩ (fun r => ∀ c : Dev nD,
      r.2.mem ((c.tc : Thread nD τ).loc main_v47) = W8 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v47 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.Result

end
-- ==== Proof.HostValues1.lean ====
/-
  What the kernel program's host operations leave for its first gridded kernel.

  Before the first launch the program computes, on the host: the clipped out- and in-degrees of the nodes and their
  inverse square roots; the features scaled by the out-degree factor, gathered along the edges' sources and summed
  into the edges' destinations (the first aggregation); the first bias as a one-row array; the two per-node factors
  laid side by side as a two-column array; the second bias as a one-row array. Each is the reference program's stage
  of the same name, applied to the same arguments: the two programs print the same operations with the same
  constants, the kernel program's extra casts to a narrower float format and back being the identity on the
  extended reals. So each buffer the first kernel is launched on is read here as a reference stage of the arguments.

  The operations come in five stretches. They are read in three steps — the out-degree, the in-degree, the rest —
  each over the contents the previous step leaves, taken as an arbitrary valuation of which only the few buffers
  the step reads are known: the terms stay small.
-/
import proofs.«153941_j9234179686680_2_alg».proof.Proof.Gen.KernelIdeal.Frame
import proofs.«153941_j9234179686680_2_alg».proof.Proof.RefRead
import proofs.«153941_j9234179686680_2_alg».proof.Proof.LibHostStretches

set_option maxRecDepth 16384

noncomputable section

namespace Cert.Gcn

open Idealize.ShloMosaic Idealize.ShloMosaic.TcCoe Idealize.ShloMosaic.StableHlo
open Idealize.SL Idealize.SL.Sem
open Cert.KernelIdeal Cert.KernelIdeal.Gen
open Cert.ReferenceIdeal.Read (val_main_v0 val_main_v4 val_main_v8 val_main_v23 val_main_v10 val_main_v26)

variable (m : (ℓ : Loc nD τ sig) → Buf (Elt Ideal) ℓ) (ρ : Dev nD → PrngReg) (c : Dev nD)

set_option quotPrecheck false

local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)

/-! ## The first two stretches: the clipped out-degree -/

macro "read_a" : tactic => `(tactic| (simp only [hostOps0, hostOps0_1]; after_results_simp))

/-- Over ANY contents `U`: a buffer these two stretches do not write keeps its contents. -/
theorem a_keep (U : Valuation τ sig (Elt Ideal)) (b : Ref sig .tc)
    (hb : b ≠ main_cst ∧ b ≠ main_v0 ∧ b ≠ main_cst_0 ∧ b ≠ main_v1 ∧ b ≠ main_v2 ∧ b ≠ main_v3 ∧ b ≠ main_cst_1
      ∧ b ≠ main_call0_v0 ∧ b ≠ main_call0_v1 ∧ b ≠ main_v4) :
    after hostOps0_1 (after hostOps0 U) (Proc.devRef .tc b) = U (Proc.devRef .tc b) := by
  obtain ⟨h1, h2, h3, h4, h5, h6, h7, h8, h9, h10⟩ := hb
  rw [after_of_forall_not_mem (b := Proc.devRef .tc b), after_of_forall_not_mem (b := Proc.devRef .tc b)]
  all_goals
    refine List.forall_iff_forall_mem.mp ?_
    simp only [hostOps0, hostOps0_1, List.Forall, nullary_writes, unary_writes, binary_writes, ternary_writes, Finset.mem_singleton]
    repeat' apply And.intro
    all_goals exact devRef_ne_of_ne (by assumption)

/-- One per edge, over any contents. -/
theorem a_ones_of (U : Valuation τ sig (Elt Ideal)) :
    after hostOps0_1 (after hostOps0 U) (Proc.devRef .tc main_v0) = val_main_v0 (F := Ideal) := by
  read_a
  rfl
/-- The clipped out-degree, over any contents whose sources are known. -/
theorem a_degOut_of (U : Valuation τ sig (Elt Ideal)) (s : (⟨S800000, .i32⟩ : BufTy).Contents (Elt Ideal))
    (hs : U (Proc.devRef .tc main_arg1) = s) :
    after hostOps0_1 (after hostOps0 U) (Proc.devRef .tc main_v4) = val_main_v4 (F := Ideal) s := by
  read_a
  rw [hs]
  simp only [Cert.HostLine.ofBuf_toBuf]
  -- a value read or written through an outlined call's typed reference is the value
  have c1 : ∀ (hh1 hh2 hh3) (v : (⟨S50000, .f32⟩ : BufTy).Contents (Elt Ideal)),
      (TRef.of (sig := sig) (T := ⟨S50000, .f32⟩) main_v4 hh1 hh2 hh3).toBuf v = v := fun _ _ _ _ => rfl
  have c2 : ∀ (hh1 hh2 hh3) (v : (⟨S_, .f32⟩ : BufTy).Contents (Elt Ideal)),
      (TRef.of (sig := sig) (T := ⟨S_, .f32⟩) main_cst_1 hh1 hh2 hh3).ofBuf v = v := fun _ _ _ _ => rfl
  have c3 : ∀ (hh1 hh2 hh3) (v : (⟨S50000, .f32⟩ : BufTy).Contents (Elt Ideal)),
      (TRef.of (sig := sig) (T := ⟨S50000, .f32⟩) main_v3 hh1 hh2 hh3).ofBuf v = v := fun _ _ _ _ => rfl
  rw [c1, c2, c3]
  rfl

theorem a_arg0 : W2 m ρ c (Proc.devRef .tc main_arg0) = x0 := a_keep (W0 m ρ c) main_arg0 (by decide)
theorem a_arg1 : W2 m ρ c (Proc.devRef .tc main_arg1) = x1 := a_keep (W0 m ρ c) main_arg1 (by decide)
theorem a_arg2 : W2 m ρ c (Proc.devRef .tc main_arg2) = x2 := a_keep (W0 m ρ c) main_arg2 (by decide)
theorem a_arg3 : W2 m ρ c (Proc.devRef .tc main_arg3) = x3 := a_keep (W0 m ρ c) main_arg3 (by decide)
theorem a_arg4 : W2 m ρ c (Proc.devRef .tc main_arg4) = x4 := a_keep (W0 m ρ c) main_arg4 (by decide)
theorem a_arg5 : W2 m ρ c (Proc.devRef .tc main_arg5) = x5 := a_keep (W0 m ρ c) main_arg5 (by decide)
theorem a_arg6 : W2 m ρ c (Proc.devRef .tc main_arg6) = x6 := a_keep (W0 m ρ c) main_arg6 (by decide)
/-- One per edge. -/
theorem a_ones : W2 m ρ c (Proc.devRef .tc main_v0) = val_main_v0 (F := Ideal) := a_ones_of (W0 m ρ c)
/-- The clipped out-degree. -/
theorem a_degOut : W2 m ρ c (Proc.devRef .tc main_v4) = val_main_v4 (F := Ideal) x1 := a_degOut_of (W0 m ρ c) _ rfl

/-! ## The next two stretches: the clipped in-degree -/

macro "read_b" : tactic => `(tactic| (simp only [hostOps0_2, hostOps0_3]; after_results_simp))

/-- Over ANY contents `U`: a buffer these two stretches do not write keeps its contents. -/
theorem b_keep (U : Valuation τ sig (Elt Ideal)) (b : Ref sig .tc)
    (hb : b ≠ main_cst_2 ∧ b ≠ main_v5 ∧ b ≠ main_v6 ∧ b ≠ main_v7 ∧ b ≠ main_cst_3 ∧ b ≠ main_call1_v0 ∧ b ≠ main_call1_v1 ∧ b ≠ main_v8) :
    after hostOps0_3 (after hostOps0_2 U) (Proc.devRef .tc b) = U (Proc.devRef .tc b) := by
  obtain ⟨h1, h2, h3, h4, h5, h6, h7, h8⟩ := hb
  rw [after_of_forall_not_mem (b := Proc.devRef .tc b), after_of_forall_not_mem (b := Proc.devRef .tc b)]
  all_goals
    refine List.forall_iff_forall_mem.mp ?_
    simp only [hostOps0_2, hostOps0_3, List.Forall, nullary_writes, unary_writes, binary_writes, ternary_writes, Finset.mem_singleton]
    repeat' apply And.intro
    all_goals exact devRef_ne_of_ne (by assumption)

theorem b_arg0 : W4 m ρ c (Proc.devRef .tc main_arg0) = x0 := (b_keep (W2 m ρ c) main_arg0 (by decide)).trans (a_arg0 m ρ c)
theorem b_arg1 : W4 m ρ c (Proc.devRef .tc main_arg1) = x1 := (b_keep (W2 m ρ c) main_arg1 (by decide)).trans (a_arg1 m ρ c)
theorem b_arg2 : W4 m ρ c (Proc.devRef .tc main_arg2) = x2 := (b_keep (W2 m ρ c) main_arg2 (by decide)).trans (a_arg2 m ρ c)
theorem b_arg3 : W4 m ρ c (Proc.devRef .tc main_arg3) = x3 := (b_keep (W2 m ρ c) main_arg3 (by decide)).trans (a_arg3 m ρ c)
theorem b_arg4 : W4 m ρ c (Proc.devRef .tc main_arg4) = x4 := (b_keep (W2 m ρ c) main_arg4 (by decide)).trans (a_arg4 m ρ c)
theorem b_arg5 : W4 m ρ c (Proc.devRef .tc main_arg5) = x5 := (b_keep (W2 m ρ c) main_arg5 (by decide)).trans (a_arg5 m ρ c)
theorem b_arg6 : W4 m ρ c (Proc.devRef .tc main_arg6) = x6 := (b_keep (W2 m ρ c) main_arg6 (by decide)).trans (a_arg6 m ρ c)
theorem b_degOut : W4 m ρ c (Proc.devRef .tc main_v4) = val_main_v4 (F := Ideal) x1 :=
  (b_keep (W2 m ρ c) main_v4 (by decide)).trans (a_degOut m ρ c)

/-- The clipped in-degree, over any contents whose edge-ones buffer and destinations are known. -/
theorem b_degIn_of (U : Valuation τ sig (Elt Ideal)) (d : (⟨S800000, .i32⟩ : BufTy).Contents (Elt Ideal))
    (h0 : U (Proc.devRef .tc main_v0) = val_main_v0 (F := Ideal)) (h2 : U (Proc.devRef .tc main_arg2) = d) :
    after hostOps0_3 (after hostOps0_2 U) (Proc.devRef .tc main_v8) = val_main_v8 (F := Ideal) d := by
  read_b
  rw [h0, h2]
  simp only [Cert.HostLine.ofBuf_toBuf]
  -- a value read or written through an outlined call's typed reference is the value
  have c1 : ∀ (hh1 hh2 hh3) (v : (⟨S50000, .f32⟩ : BufTy).Contents (Elt Ideal)),
      (TRef.of (sig := sig) (T := ⟨S50000, .f32⟩) main_v8 hh1 hh2 hh3).toBuf v = v := fun _ _ _ _ => rfl
  have c2 : ∀ (hh1 hh2 hh3) (v : (⟨S_, .f32⟩ : BufTy).Contents (Elt Ideal)),
      (TRef.of (sig := sig) (T := ⟨S_, .f32⟩) main_cst_3 hh1 hh2 hh3).ofBuf v = v := fun _ _ _ _ => rfl
  have c3 : ∀ (hh1 hh2 hh3) (v : (⟨S50000, .f32⟩ : BufTy).Contents (Elt Ideal)),
      (TRef.of (sig := sig) (T := ⟨S50000, .f32⟩) main_v7 hh1 hh2 hh3).ofBuf v = v := fun _ _ _ _ => rfl
  rw [c1, c2, c3]
  rfl
theorem b_degIn : W4 m ρ c (Proc.devRef .tc main_v8) = val_main_v8 (F := Ideal) x2 :=
  b_degIn_of (W2 m ρ c) _ (a_ones m ρ c) (a_arg2 m ρ c)

/-! ## The last stretch before the first launch -/

macro "read_c" : tactic => `(tactic| (simp only [hostOps0_4]; after_results_simp))

section LastStretch

variable (U : Valuation τ sig (Elt Ideal))
  (f : (⟨S50000x128, .f32⟩ : BufTy).Contents (Elt Ideal)) (s d : (⟨S800000, .i32⟩ : BufTy).Contents (Elt Ideal))
  (b1 : (⟨S128, .f32⟩ : BufTy).Contents (Elt Ideal)) (b2 : (⟨S64, .f32⟩ : BufTy).Contents (Elt Ideal))
  (hf : U (Proc.devRef .tc main_arg0) = f) (hs : U (Proc.devRef .tc main_arg1) = s) (hd : U (Proc.devRef .tc main_arg2) = d)
  (hb1 : U (Proc.devRef .tc main_arg4) = b1) (hb2 : U (Proc.devRef .tc main_arg6) = b2)
  (ho : U (Proc.devRef .tc main_v4) = val_main_v4 (F := Ideal) s) (hi : U (Proc.devRef .tc main_v8) = val_main_v8 (F := Ideal) d)

include hd hi in
/-- The in-degree factor. -/
theorem c_invIn_of : after hostOps0_4 U (Proc.devRef .tc main_v12) = val_main_v26 (F := Ideal) d := by
  read_c
  rw [hi]
  rfl

include hf hs hd ho in
/-- The first aggregation. -/
theorem c_agg1_of : after hostOps0_4 U (Proc.devRef .tc main_v29) = val_main_v23 (F := Ideal) f s d := by
  read_c
  rw [hf, hs, hd, ho]
  rfl

include hs hd ho hi in
/-- The two factors side by side: column 0 the in-degree factor, column 1 the out-degree factor. (The stretch's
    last operation lays two earlier buffers side by side: it is read apart from the 28 operations before it.) -/
theorem c_scales_of : after hostOps0_4 U (Proc.devRef .tc main_v32)
    = concatenate S50000x2 1 [⟨S50000x1, broadcastInDim S50000x1 ![0] bcast_S50000_S50000x1_0 (val_main_v26 (F := Ideal) d)⟩,
        ⟨S50000x1, broadcastInDim S50000x1 ![0] bcast_S50000_S50000x1_0 (val_main_v10 (F := Ideal) s)⟩] concatenates_S50000x1_S50000x1_S50000x2_d1 := by
  rw [Cert.HostLine.after_split 28 hostOps0_4 U]
  have e30 : after ((hostOps0_4 (F := Ideal)).take 28) U (Proc.devRef .tc main_v30)
      = broadcastInDim S50000x1 ![0] bcast_S50000_S50000x1_0 (val_main_v26 (F := Ideal) d) := by
    simp only [hostOps0_4, List.take_succ_cons, List.take_zero]
    after_results_simp
    rw [hi]
    rfl
  have e31 : after ((hostOps0_4 (F := Ideal)).take 28) U (Proc.devRef .tc main_v31)
      = broadcastInDim S50000x1 ![0] bcast_S50000_S50000x1_0 (val_main_v10 (F := Ideal) s) := by
    simp only [hostOps0_4, List.take_succ_cons, List.take_zero]
    after_results_simp
    rw [ho]
    rfl
  generalize after ((hostOps0_4 (F := Ideal)).take 28) U = W at e30 e31 ⊢
  simp only [hostOps0_4, List.drop_succ_cons, List.drop_zero]
  after_results_simp
  rw [e30, e31]

include hb1 in
/-- The first bias as a one-row array. -/
theorem c_bias1_of : after hostOps0_4 U (Proc.devRef .tc main_v13) = shapeCast S1x128 (b1 : S128.Idx → EReal) shapeCasts_S128_S1x128 := by
  read_c
  rw [hb1]
  rfl

include hb2 in
/-- The second bias as a one-row array. -/
theorem c_bias2_of : after hostOps0_4 U (Proc.devRef .tc main_v14) = shapeCast S1x64 (b2 : S64.Idx → EReal) shapeCasts_S64_S1x64 := by
  read_c
  rw [hb2]
  rfl

/-- The stretch writes no argument. -/
theorem c_keep1 : after hostOps0_4 U (Proc.devRef .tc main_arg1) = U (Proc.devRef .tc main_arg1) := by read_c
theorem c_keep2 : after hostOps0_4 U (Proc.devRef .tc main_arg2) = U (Proc.devRef .tc main_arg2) := by read_c
theorem c_keep3 : after hostOps0_4 U (Proc.devRef .tc main_arg3) = U (Proc.devRef .tc main_arg3) := by read_c
theorem c_keep5 : after hostOps0_4 U (Proc.devRef .tc main_arg5) = U (Proc.devRef .tc main_arg5) := by read_c

end LastStretch

/-- The first aggregation. -/
theorem entry_agg1 : W5 m ρ c (Proc.devRef .tc main_v29) = val_main_v23 (F := Ideal) x0 x1 x2 :=
  c_agg1_of (W4 m ρ c) _ _ _ (b_arg0 m ρ c) (b_arg1 m ρ c) (b_arg2 m ρ c) (b_degOut m ρ c)
/-- The in-degree factor. -/
theorem entry_invIn : W5 m ρ c (Proc.devRef .tc main_v12) = val_main_v26 (F := Ideal) x2 :=
  c_invIn_of (W4 m ρ c) _ (b_arg2 m ρ c) (b_degIn m ρ c)
/-- The two factors side by side. -/
theorem entry_scales : W5 m ρ c (Proc.devRef .tc main_v32)
    = concatenate S50000x2 1 [⟨S50000x1, broadcastInDim S50000x1 ![0] bcast_S50000_S50000x1_0 (val_main_v26 (F := Ideal) x2)⟩,
        ⟨S50000x1, broadcastInDim S50000x1 ![0] bcast_S50000_S50000x1_0 (val_main_v10 (F := Ideal) x1)⟩] concatenates_S50000x1_S50000x1_S50000x2_d1 :=
  c_scales_of (W4 m ρ c) _ _ (b_arg1 m ρ c) (b_arg2 m ρ c) (b_degOut m ρ c) (b_degIn m ρ c)
/-- The two biases as one-row arrays. -/
theorem entry_bias1 : W5 m ρ c (Proc.devRef .tc main_v13) = shapeCast S1x128 (x4 : S128.Idx → EReal) shapeCasts_S128_S1x128 :=
  c_bias1_of (W4 m ρ c) _ (b_arg4 m ρ c)
theorem entry_bias2 : W5 m ρ c (Proc.devRef .tc main_v14) = shapeCast S1x64 (x6 : S64.Idx → EReal) shapeCasts_S64_S1x64 :=
  c_bias2_of (W4 m ρ c) _ (b_arg6 m ρ c)
/-- The arguments the later segments read are as launched. -/
theorem entry_arg1 : W5 m ρ c (Proc.devRef .tc main_arg1) = x1 := (c_keep1 (W4 m ρ c)).trans (b_arg1 m ρ c)
theorem entry_arg2 : W5 m ρ c (Proc.devRef .tc main_arg2) = x2 := (c_keep2 (W4 m ρ c)).trans (b_arg2 m ρ c)
theorem entry_arg3 : W5 m ρ c (Proc.devRef .tc main_arg3) = x3 := (c_keep3 (W4 m ρ c)).trans (b_arg3 m ρ c)
theorem entry_arg5 : W5 m ρ c (Proc.devRef .tc main_arg5) = x5 := (c_keep5 (W4 m ρ c)).trans (b_arg5 m ρ c)

end Cert.Gcn

end
-- ==== Proof.LibRowsTimes.lean ====
/-
  The product of two arrays, entry by entry, on the extended reals — general in the extents M, K, N.

  For `a` of shape [M, K] and `w` of shape [K, N] the product `rowsTimes a w` has, at (r, j), the sum over `k` of
  `a (r, k) · w (k, j)`. Three facts:

  * `rowsTimes_of_rows` — rows of a product are products of rows: if a block `a'` of shape [R, K] holds, at its row
    `j 0`, what `a` holds at row `i 0` (and `w'` at column `j 1` what `w` holds at column `i 1`), then `a' · w'`
    at `j` is `a · w` at `i`. This is why a product computed one block of rows at a time is the whole product.
  * `contraction_eq` — a contraction over ONE axis of extent K (how a matrix unit's product into a zero
    accumulator, and the host's `dot_general`, read on the extended reals: a sum over the contraction index of
    left-operand × right-operand entries) is `rowsTimes`, once the contraction index is renamed by its one
    coordinate and the two operand indices are shown to be (row, k) and (k, column).
  * `relu` — the maximum with zero, entry by entry, the zero spelt as the f32 word 0x00000000.

  No finiteness is needed anywhere: both sides of every equation are the same sum of the same products in the
  same order.
-/
import Idealize.ShloMosaic.PureOps.Ideal.Laws
import Idealize.ShloMosaic.Lib.ValueIdx

noncomputable section

namespace Cert.Dense

open Idealize.ShloMosaic Idealize.ShloMosaic.ValueIdx

/-- `(a · w) (r, j) = ∑ k, a (r, k) · w (k, j)`. -/
def rowsTimes {M K N : Nat} (a : (⟨2, ![M, K]⟩ : Shape).Idx → EReal) (w : (⟨2, ![K, N]⟩ : Shape).Idx → EReal) :
    (⟨2, ![M, N]⟩ : Shape).Idx → EReal :=
  fun i => ∑ k : Fin K, a (ix2 (i 0 : Fin M) k) * w (ix2 k (i 1 : Fin N))

/-- The rectifier `x ↦ max x 0`, entry by entry (the zero spelt as the f32 word both programs print it as: the
    same word on both sides, never evaluated). -/
def relu {S : Shape} (x : S.Idx → EReal) : S.Idx → EReal :=
  fun i => max (x i) (Ideal.ofBits .f32 0x00000000#32)

/-- Rows of a product are the products of rows: where `a'` at row `j 0` is `a` at row `i 0`, and `w'` at column
    `j 1` is `w` at column `i 1`, the two products agree at `j` and `i`. -/
theorem rowsTimes_of_rows {M R K N N' : Nat} (a : (⟨2, ![M, K]⟩ : Shape).Idx → EReal) (w : (⟨2, ![K, N]⟩ : Shape).Idx → EReal)
    (a' : (⟨2, ![R, K]⟩ : Shape).Idx → EReal) (w' : (⟨2, ![K, N']⟩ : Shape).Idx → EReal)
    (j : (⟨2, ![R, N']⟩ : Shape).Idx) (i : (⟨2, ![M, N]⟩ : Shape).Idx)
    (ha : ∀ k : Fin K, a' (ix2 (j 0 : Fin R) k) = a (ix2 (i 0 : Fin M) k))
    (hw : ∀ k : Fin K, w' (ix2 k (j 1 : Fin N')) = w (ix2 k (i 1 : Fin N))) :
    rowsTimes a' w' j = rowsTimes a w i :=
  Finset.sum_congr rfl fun k _ => by rw [ha k, hw k]

/-- A contraction over one axis of extent `K` whose left index at (i, q) is (i 0, q) and whose right index is
    (q, i 1) is the product above: the contraction index renamed by its one coordinate. -/
theorem contraction_eq {M K N : Nat} {sl sr so : Shape} (d : DotDims sl sr so) (hr : d.contr.rank = 1)
    (hs : d.contr.size ⟨0, by omega⟩ = K)
    (a : (⟨2, ![M, K]⟩ : Shape).Idx → EReal) (w : (⟨2, ![K, N]⟩ : Shape).Idx → EReal)
    (l : sl.Idx → EReal) (r : sr.Idx → EReal) (i : so.Idx) (i' : (⟨2, ![M, N]⟩ : Shape).Idx)
    (hl : ∀ k : Fin K, l (d.lhsIdx i ((contrEquiv1 d K hr hs).symm k)) = a (ix2 (i' 0 : Fin M) k))
    (hw : ∀ k : Fin K, r (d.rhsIdx i ((contrEquiv1 d K hr hs).symm k)) = w (ix2 k (i' 1 : Fin N))) :
    ∑ q : d.contr.Idx, l (d.lhsIdx i q) * r (d.rhsIdx i q) = rowsTimes a w i' := by
  rw [← Equiv.sum_comp (contrEquiv1 d K hr hs).symm]
  exact Finset.sum_congr rfl fun k _ => by rw [hl k, hw k]

end Cert.Dense

end
-- ==== Proof.LibRowsCols.lean ====
/-
  A contraction of a [R, K] array with a [K, N] array over their one shared axis, read at an entry.

  Both the matrix unit's product into a zero accumulator (the kernel's `tpu.matmul`) and the host's
  `dot_general` are, on the extended reals, the sum over the contraction index of left entry × right entry.
  When the record's left operand index at output (r, j) and contraction position k is (r, k), and the right one
  is (k, j), that sum is `rowsTimes a w (r, j) = ∑ k, a (r, k) · w (k, j)`. A change of float format is the
  identity on the extended reals, so the kernel's casts of its operands to bf16 do not appear.

  Only commutative-monoid facts about the sum are used: nothing here needs the entries to be finite.
-/
import Idealize.ShloMosaic.PureOps.Ideal.Laws
import Idealize.ShloMosaic.Lib.ValueIdx
import proofs.«153941_j9234179686680_2_alg».proof.Proof.LibRowsTimes

noncomputable section

namespace Cert.Dense

open Idealize.ShloMosaic Idealize.ShloMosaic.ValueIdx

variable {R K N : Nat} (d : DotDims ⟨2, ![R, K]⟩ ⟨2, ![K, N]⟩ ⟨2, ![R, N]⟩)

/-- The record contracts ONE axis, of extent `K`, and its operand indices at output index `j` and contraction
    position `k` are (j 0, k) on the left and (k, j 1) on the right: "rows times columns". -/
structure RowsCols : Prop where
  rank : d.contr.rank = 1
  size : d.contr.size ⟨0, by omega⟩ = K
  l0 : ∀ (j : (⟨2, ![R, N]⟩ : Shape).Idx) (k : d.contr.Idx), (d.lhsIdx j k 0).val = (j 0).val
  l1 : ∀ (j : (⟨2, ![R, N]⟩ : Shape).Idx) (k : d.contr.Idx), (d.lhsIdx j k 1).val = (k ⟨0, by omega⟩).val
  r0 : ∀ (j : (⟨2, ![R, N]⟩ : Shape).Idx) (k : d.contr.Idx), (d.rhsIdx j k 0).val = (k ⟨0, by omega⟩).val
  r1 : ∀ (j : (⟨2, ![R, N]⟩ : Shape).Idx) (k : d.contr.Idx), (d.rhsIdx j k 1).val = (j 1).val

variable {d}

/-- The left operand index, with the contraction position named by its one coordinate `k`, is (j 0, k). -/
theorem RowsCols.lhs (h : RowsCols d) (j : (⟨2, ![R, N]⟩ : Shape).Idx) (k : Fin K) :
    d.lhsIdx j ((contrEquiv1 d K h.rank h.size).symm k) = ix2 (j 0 : Fin R) k := by
  funext x; apply Fin.ext
  match x with
  | ⟨0, _⟩ => exact h.l0 j _
  | ⟨1, _⟩ => exact (h.l1 j _).trans (contrEquiv1_symm_val d K h.rank h.size k)

/-- The right operand index, likewise, is (k, j 1). -/
theorem RowsCols.rhs (h : RowsCols d) (j : (⟨2, ![R, N]⟩ : Shape).Idx) (k : Fin K) :
    d.rhsIdx j ((contrEquiv1 d K h.rank h.size).symm k) = ix2 k (j 1 : Fin N) := by
  funext x; apply Fin.ext
  match x with
  | ⟨0, _⟩ => exact (h.r0 j _).trans (contrEquiv1_symm_val d K h.rank h.size k)
  | ⟨1, _⟩ => exact h.r1 j _

/-- The matrix unit's product of `a` and `w` into the zero accumulator, at (r, j), is `∑ k, a (r, k) · w (k, j)`;
    the operands' float formats are whatever they are (a format is not seen on the extended reals). -/
theorem matmul_zero_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    FloatOps.matmul d prec a w (constant (F := Ideal) ⟨2, ![R, N]⟩ .f32 0x00000000#32) j = rowsTimes a w j := by
  rw [Ideal.matmul_constant_zero_apply]
  exact contraction_eq d h.rank h.size a w a w j j (fun k => congrArg a (h.lhs j k)) (fun k => congrArg w (h.rhs j k))

/-- The host's `dot_general` of `a` and `w`, at (r, j), is the same sum. -/
theorem dotGeneral_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    Host.dotGeneral d prec a w j = rowsTimes a w j := by
  show FloatOps.dotGeneral d prec .single a w j = _
  rw [Ideal.dotGeneral_apply]
  exact contraction_eq d h.rank h.size a w a w j j (fun k => congrArg a (h.lhs j k)) (fun k => congrArg w (h.rhs j k))

/-- So the host's `dot_general` of two whole arrays IS their product, as one function. -/
theorem dotGeneral_eq (h : RowsCols d) (prec : Option ContractPrecision) {φ₁ φ₂ : FTy}
    (a : FVec Ideal ⟨2, ![R, K]⟩ φ₁) (w : FVec Ideal ⟨2, ![K, N]⟩ φ₂) :
    Host.dotGeneral d prec a w = rowsTimes a w := funext (dotGeneral_apply h prec a w)

end Cert.Dense

end
-- ==== Proof.LibRowwise.lean ====
/-
  Arrays handled row by row.

  A two-dimensional array `a` with `R` rows *is the rows `f p` of `b`* (`RowsOf f a b`) when
  `a (p, c) = b (f p, c)` for every row `p` and column `c`; a block of consecutive rows of a taller array is the
  example to have in mind (`f p = first + p`). Every operation that treats each row on its own carries the relation
  from its operands to its result:

  * a unit-stride slice of columns `[o, o + w)` (`RowsOf.slice`);
  * the broadcast of a one-column array along the columns, the shorter array's in the vector form
    (`broadcastTo`) and the taller one's in the host's form (`broadcastInDim … ![0, 1]`) (`RowsOf.bcast`);
  * a pointwise product (`RowsOf.mulf`);
  * a concatenation of pieces along the columns, through `concatCols_ix2`: at column `k` inside the span
    `[pre, pre + w)` of piece `n`, the concatenation is that piece at column `k - pre` of the same row.

  Each operation is first read at an index `(p, c)` given by its two coordinates (`slice_ix2`, `bcastTo_ix2`,
  `bcastInDim_ix2`), in any element type.
-/
import Idealize.ShloMosaic.Lib.Pipeline.Value
import Idealize.ShloMosaic.Lib.ValueIdx

noncomputable section

namespace Cert.Lib.Rowwise

open Idealize.ShloMosaic Idealize.ShloMosaic.ValueIdx

variable {α : Type}

/-- The shape of an array of `R` rows and `w` columns. -/
abbrev Sh2 (R w : Nat) : Shape := ⟨2, ![R, w]⟩

/-- `a` is the rows `f p` of `b`: entry `(p, c)` of `a` is entry `(f p, c)` of `b`. -/
def RowsOf {R R' w : Nat} (f : Fin R → Fin R') (a : (Sh2 R w).Idx → α) (b : (Sh2 R' w).Idx → α) : Prop :=
  ∀ (p : Fin R) (c : Fin w), a (ix2 p c) = b (ix2 (f p) c)

/-- Columns `[o, o + w)` of `a`, read at `(p, c)`: `a` at `(p, o + c)`. -/
theorem slice_ix2 {R W w : Nat} (o : Nat) (a : (Sh2 R W).Idx → α) (h : (Sh2 R W).Slices ![0, o] (Sh2 R w))
    (p : Fin R) (c : Fin w) (hc : o + c.val < W) :
    extractStridedSlice (Sh2 R w) ![0, o] a h (ix2 p c) = a (ix2 p ⟨o + c.val, hc⟩) :=
  extractStridedSlice_apply ![0, o] a h (ix2 p c) (ix2 p ⟨o + c.val, hc⟩) (fun d => match d with
    | ⟨0, _⟩ => by show p.val = 0 + p.val; omega
    | ⟨1, _⟩ => rfl)

/-- A one-column array spread over `w` columns (the vector form), read at `(p, c)`: its entry in row `p`. -/
theorem bcastTo_ix2 {R w : Nat} (a : (Sh2 R 1).Idx → α) (h : (Sh2 R 1).Broadcasts (Sh2 R w)) (p : Fin R) (c : Fin w) :
    broadcastTo (Sh2 R w) a h (ix2 p c) = a (ix2 p 0) :=
  broadcastTo_apply a h (ix2 p c) (ix2 p 0) (fun d => match d with
    | ⟨0, _⟩ => by
        show p.val = if R = 1 then 0 else p.val
        split
        · have := p.isLt; omega
        · rfl
    | ⟨1, _⟩ => rfl)

/-- A one-column array spread over `w` columns (the host's form, both axes kept), read at `(p, c)`: its entry in
    row `p`. -/
theorem bcastInDim_ix2 {R w : Nat} (a : (Sh2 R 1).Idx → α) (h : (Sh2 R 1).BroadcastsInDim (Sh2 R w) ![0, 1])
    (p : Fin R) (c : Fin w) :
    broadcastInDim (Sh2 R w) ![0, 1] h a (ix2 p c) = a (ix2 p 0) :=
  broadcastInDim_apply ![0, 1] h a (ix2 p c) (ix2 p 0) (fun d => match d with
    | ⟨0, _⟩ => by
        show p.val = if R = 1 then 0 else p.val
        split
        · have := p.isLt; omega
        · rfl
    | ⟨1, _⟩ => rfl)

/-- A slice of columns acts row by row. -/
theorem RowsOf.slice {R R' W w : Nat} {f : Fin R → Fin R'} {a : (Sh2 R W).Idx → α} {b : (Sh2 R' W).Idx → α}
    (hab : RowsOf f a b) (o : Nat) (hoW : o + w ≤ W)
    (h : (Sh2 R W).Slices ![0, o] (Sh2 R w)) (h' : (Sh2 R' W).Slices ![0, o] (Sh2 R' w)) :
    RowsOf f (extractStridedSlice (Sh2 R w) ![0, o] a h) (extractStridedSlice (Sh2 R' w) ![0, o] b h') := by
  intro p c
  have hc : o + c.val < W := by have := c.isLt; omega
  rw [slice_ix2 o a h p c hc, slice_ix2 o b h' (f p) c hc]
  exact hab p _

/-- Spreading a column over the columns acts row by row (the vector form on the one side, the host's on the other). -/
theorem RowsOf.bcast {R R' w : Nat} {f : Fin R → Fin R'} {a : (Sh2 R 1).Idx → α} {b : (Sh2 R' 1).Idx → α}
    (hab : RowsOf f a b) (h : (Sh2 R 1).Broadcasts (Sh2 R w)) (h' : (Sh2 R' 1).BroadcastsInDim (Sh2 R' w) ![0, 1]) :
    RowsOf f (broadcastTo (Sh2 R w) a h) (broadcastInDim (Sh2 R' w) ![0, 1] h' b) := by
  intro p c
  rw [bcastTo_ix2, bcastInDim_ix2]
  exact hab p 0

/-- A pointwise product acts row by row. -/
theorem RowsOf.mulf {F : FTy → Type} [FloatOps F] {φ : FTy} {R R' w : Nat} {f : Fin R → Fin R'}
    {a a' : FVec F (Sh2 R w) φ} {b b' : FVec F (Sh2 R' w) φ}
    (h : RowsOf f a b) (h' : RowsOf f a' b') : RowsOf f (Idealize.ShloMosaic.mulf a a') (Idealize.ShloMosaic.mulf b b') := by
  intro p c
  show FloatOps.mulf (a _) (a' _) = FloatOps.mulf (b _) (b' _)
  rw [h p c, h' p c]

/-- The widths of the first `n` pieces of a concatenation along the columns add up as the first `n` entries of
    the list of widths. -/
theorem widths_take_sum {R C : Nat} : ∀ (xs : List ((s : Shape) × (s.Idx → α))) (ws : List Nat),
    xs.map (·.1) = ws.map (fun w => Sh2 R w) → ∀ n : Nat,
    (((xs.take n).map (·.1)).map fun s =>
      if h : s.rank = (Sh2 R C).rank then s.size ((1 : Fin (Sh2 R C).rank).cast h.symm) else 0).sum = (ws.take n).sum
  | _, _, _, 0 => by simp
  | [], [], _, _ + 1 => by simp
  | [], _ :: _, h, _ => by simp at h
  | _ :: _, [], h, _ => by simp at h
  | x :: xs, w :: ws, h, n + 1 => by
    simp only [List.map_cons, List.cons.injEq] at h
    simp only [List.take_succ_cons, List.map_cons, List.sum_cons]
    rw [widths_take_sum xs ws h.2 n, h.1]
    show (if h : (2 : ℕ) = 2 then (![R, w] : Fin 2 → ℕ) ((1 : Fin 2).cast h.symm) else 0) + _ = _
    rw [dif_pos rfl]
    rfl

/-- A concatenation along the columns of pieces of widths `ws`, read at `(p, k)` with `k` inside the span
    `[pre, pre + w)` of piece `n` (`pre` the sum of the widths before it): that piece at `(p, k - pre)`. -/
theorem concatCols_ix2 {R C : Nat} (xs : List ((s : Shape) × (s.Idx → α)))
    (h : Shape.Concatenates (xs.map (·.1)) (Sh2 R C) 1)
    (ws : List Nat) (hws : xs.map (·.1) = ws.map (fun w => Sh2 R w))
    (n : Nat) (hn : n < xs.length) (w : Nat) (x : (Sh2 R w).Idx → α) (hx : xs[n] = ⟨Sh2 R w, x⟩)
    (pre : Nat) (hpre : (ws.take n).sum = pre)
    (p : Fin R) (k : Fin C) (hlo : pre ≤ k.val) (hhi : k.val < pre + w) :
    concatenate (Sh2 R C) 1 xs h (ix2 p k) = x (ix2 p ⟨k.val - pre, by omega⟩) :=
  concatenate_apply_piece 1 xs h (ix2 p k) n hn (Sh2 R w) x hx rfl pre
    ((widths_take_sum (C := C) xs ws hws n).trans hpre) (ix2 p ⟨k.val - pre, by omega⟩)
    (fun b hb => match b, hb with
      | ⟨0, _⟩, _ => rfl
      | ⟨1, _⟩, hb => absurd rfl hb)
    (by show pre + (k.val - pre) = k.val; omega)

end Cert.Lib.Rowwise

end
-- ==== Proof.LibColumnLayout.lean ====
/-
  A vector kept as a one-column matrix, and that column repeated along the rows' other axis.

  The library reads a leading unit axis added to a vector ([a] as [1, a]) and one row broadcast down many
  ([1, b] to [a, b]). A reduction along the last axis that keeps its dimension produces the other arrangement:
  the [a] results become the single column of an [a, 1] matrix, and that column is then repeated b times to [a, b].
  Both read the vector at the row's coordinate.
-/
import Idealize.ShloMosaic.Lib.Pipeline.Value
import Idealize.ShloMosaic.Lib.ValueIdx
import Idealize.ShloMosaic.Lib.ValueLayout

namespace Idealize.ShloMosaic.ColumnLayout

open Idealize.ShloMosaic Idealize.ShloMosaic.ValueIdx

variable {α : Type}

/-- An `[a]` vector cast to the one column of an `[a, 1]` matrix reads, at `(i, u)`, the vector at `i`,
    whatever the unit coordinate `u`: the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` matrix broadcast to `[a, b]` reads, at `(p, c)`, its one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and repeated along the rows reads the vector at the row. -/
theorem column_broadcast_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- The row counterpart from the library's two lemmas: a vector given a leading unit axis and broadcast down the rows
    reads the vector at the column. -/
theorem row_broadcast_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

end Idealize.ShloMosaic.ColumnLayout
-- ==== Proof.LibRowLayers.lean ====
/-
  The layers of a small perceptron applied to a block of `R` rows at once, read at one row `p`.

  Each lemma takes what the layer's input holds in row `p` (`ha : ∀ k, a (p, k) = row k`) and says what the
  layer's output holds at `(p, j)`, as a function of `row` alone — so a stack of layers is read by stacking the
  lemmas, one row at a time, whatever the number of rows in the block:

  * `product_apply` — the matrix unit's product with a `[K, N]` weight block into a zero accumulator:
    `∑ k, row k · w (k, j)`;
  * `bias_apply` — a `[1, N]` row repeated down the rows: its entry in column `j`;
  * `dense_apply`, `denseWith_apply` — product plus bias, and product plus an outer product `u (p) · wu (j)` of a
    one-column array with a one-row array plus bias (a layer whose last input coordinate is kept apart);
  * `unit_apply` — the rows divided by their Euclidean lengths (sum of squares along the row, kept as a column,
    square root, maximum with a floor, column repeated along the row, quotient):
    `row j / max (√(∑ k, row k²)) floor`.

  Only the definitions of the operations on the extended reals are used; nothing needs the entries to be finite.
-/
import Idealize.ShloMosaic.PureOps.Ideal.Laws
import Idealize.ShloMosaic.Lib.ValueIdx
import Idealize.ShloMosaic.Lib.ValueLayout
import Idealize.ShloMosaic.Lib.Pipeline.Value
import proofs.«153941_j9234179686680_2_alg».proof.Proof.LibRowsTimes
import proofs.«153941_j9234179686680_2_alg».proof.Proof.LibRowsCols
import proofs.«153941_j9234179686680_2_alg».proof.Proof.LibColumnLayout

noncomputable section

namespace Cert.RowLayers

open Idealize.ShloMosaic Idealize.ShloMosaic.ValueIdx Cert.Dense

variable {R K N : Nat}

/-- A `[1, N]` row (cast to its own shape) repeated down `R` rows reads, at `(p, j)`, the row at `j`. -/
theorem bias_apply {α : Type} (b : (⟨2, ![1, N]⟩ : Shape).Idx → α) (h₁ : (⟨2, ![1, N]⟩ : Shape).ShapeCasts ⟨2, ![1, N]⟩)
    (h₂ : (⟨2, ![1, N]⟩ : Shape).Broadcasts ⟨2, ![R, N]⟩) (p : Fin R) (j : Fin N) :
    broadcastTo ⟨2, ![R, N]⟩ (shapeCast ⟨2, ![1, N]⟩ b h₁) h₂ (ix2 p j) = b (ix2 (0 : Fin 1) j) := by
  rw [shapeCast_self]; exact broadcastTo_1b_ab_apply b h₂ p j

/-- The matrix unit's product of a block whose row `p` is `row` with a weight block, into the zero accumulator,
    at `(p, j)`: `∑ k, row k · w (k, j)`. -/
theorem product_apply (d : DotDims ⟨2, ![R, K]⟩ ⟨2, ![K, N]⟩ ⟨2, ![R, N]⟩) (hd : RowsCols d)
    (prec : Option ContractPrecision) {φ₁ φ₂ : FTy}
    (a : FVec Ideal ⟨2, ![R, K]⟩ φ₁) (w : FVec Ideal ⟨2, ![K, N]⟩ φ₂)
    (hc : (⟨2, ![K, N]⟩ : Shape).ShapeCasts ⟨2, ![K, N]⟩) (p : Fin R) (j : Fin N)
    (row : Fin K → EReal) (ha : ∀ k, a (ix2 p k) = row k) :
    matmul d prec a (shapeCast ⟨2, ![K, N]⟩ w hc) (constant (F := Ideal) ⟨2, ![R, N]⟩ .f32 0x00000000#32) (ix2 p j)
      = ∑ k : Fin K, row k * w (ix2 k j) := by
  rw [shapeCast_self]
  refine (matmul_zero_apply hd prec a w (ix2 p j)).trans ?_
  exact Finset.sum_congr rfl fun k _ => congrArg (· * w (ix2 k j)) (ha k)

/-- Product plus bias at `(p, j)`. -/
theorem dense_apply (d : DotDims ⟨2, ![R, K]⟩ ⟨2, ![K, N]⟩ ⟨2, ![R, N]⟩) (hd : RowsCols d)
    (prec : Option ContractPrecision) {φ₁ φ₂ : FTy}
    (a : FVec Ideal ⟨2, ![R, K]⟩ φ₁) (w : FVec Ideal ⟨2, ![K, N]⟩ φ₂)
    (hc : (⟨2, ![K, N]⟩ : Shape).ShapeCasts ⟨2, ![K, N]⟩)
    (b : FVec Ideal ⟨2, ![1, N]⟩ .f32) (hb₁ : (⟨2, ![1, N]⟩ : Shape).ShapeCasts ⟨2, ![1, N]⟩)
    (hb₂ : (⟨2, ![1, N]⟩ : Shape).Broadcasts ⟨2, ![R, N]⟩) (p : Fin R) (j : Fin N)
    (row : Fin K → EReal) (ha : ∀ k, a (ix2 p k) = row k) :
    addf (matmul d prec a (shapeCast ⟨2, ![K, N]⟩ w hc) (constant (F := Ideal) ⟨2, ![R, N]⟩ .f32 0x00000000#32))
        (broadcastTo ⟨2, ![R, N]⟩ (shapeCast ⟨2, ![1, N]⟩ b hb₁) hb₂) (ix2 p j)
      = (∑ k : Fin K, row k * w (ix2 k j)) + b (ix2 (0 : Fin 1) j) :=
  (addf_apply _ _ _).trans (congrArg₂ (· + ·) (product_apply d hd prec a w hc p j row ha) (bias_apply b hb₁ hb₂ p j))

/-- Product, plus the outer product of a one-column array `u` with a one-row array `wu`, plus bias, at `(p, j)`. -/
theorem denseWith_apply (d : DotDims ⟨2, ![R, K]⟩ ⟨2, ![K, N]⟩ ⟨2, ![R, N]⟩) (hd : RowsCols d)
    (prec : Option ContractPrecision) {φ₁ φ₂ : FTy}
    (a : FVec Ideal ⟨2, ![R, K]⟩ φ₁) (w : FVec Ideal ⟨2, ![K, N]⟩ φ₂)
    (hc : (⟨2, ![K, N]⟩ : Shape).ShapeCasts ⟨2, ![K, N]⟩)
    (u : FVec Ideal ⟨2, ![R, 1]⟩ .f32) (hu : (⟨2, ![R, 1]⟩ : Shape).Broadcasts ⟨2, ![R, N]⟩)
    (wu : FVec Ideal ⟨2, ![1, N]⟩ .f32) (hw₁ : (⟨2, ![1, N]⟩ : Shape).ShapeCasts ⟨2, ![1, N]⟩)
    (hw₂ : (⟨2, ![1, N]⟩ : Shape).Broadcasts ⟨2, ![R, N]⟩)
    (b : FVec Ideal ⟨2, ![1, N]⟩ .f32) (hb₁ : (⟨2, ![1, N]⟩ : Shape).ShapeCasts ⟨2, ![1, N]⟩)
    (hb₂ : (⟨2, ![1, N]⟩ : Shape).Broadcasts ⟨2, ![R, N]⟩) (p : Fin R) (j : Fin N)
    (row : Fin K → EReal) (ha : ∀ k, a (ix2 p k) = row k) :
    addf (addf (matmul d prec a (shapeCast ⟨2, ![K, N]⟩ w hc) (constant (F := Ideal) ⟨2, ![R, N]⟩ .f32 0x00000000#32))
          (mulf (broadcastTo ⟨2, ![R, N]⟩ u hu) (broadcastTo ⟨2, ![R, N]⟩ (shapeCast ⟨2, ![1, N]⟩ wu hw₁) hw₂)))
        (broadcastTo ⟨2, ![R, N]⟩ (shapeCast ⟨2, ![1, N]⟩ b hb₁) hb₂) (ix2 p j)
      = (∑ k : Fin K, row k * w (ix2 k j)) + u (ix2 p (0 : Fin 1)) * wu (ix2 (0 : Fin 1) j) + b (ix2 (0 : Fin 1) j) :=
  (addf_apply _ _ _).trans (congrArg₂ (· + ·)
    ((addf_apply _ _ _).trans (congrArg₂ (· + ·) (product_apply d hd prec a w hc p j row ha)
      ((mulf_apply _ _ _).trans (congrArg₂ (· * ·) (ColumnLayout.broadcastTo_a1_ab_apply u hu p j) (bias_apply wu hw₁ hw₂ p j)))))
    (bias_apply b hb₁ hb₂ p j))

/-- The index a sum along the row inserts: `(p, k)`. -/
theorem lift_row (hred : (⟨2, ![R, N]⟩ : Shape).Reduces [1] ⟨1, ![R]⟩) (p : Fin R) (k : Fin N) :
    hred.lift (ix1 p) k = ix2 p k := by
  funext x; apply Fin.ext
  match x with
  | ⟨0, _⟩ => rfl
  | ⟨1, _⟩ => rfl

/-- The rows divided by their Euclidean lengths kept above a floor, at `(p, j)`. -/
theorem unit_apply (a : FVec Ideal ⟨2, ![R, N]⟩ .f32) (fl : BitVec 32)
    (hred : (⟨2, ![R, N]⟩ : Shape).Reduces [1] ⟨1, ![R]⟩) (hφ : FKind.Formats .f32)
    (hacc : (0x00000000#32 : BitVec 32) = FKind.add.neutral .f32 hφ)
    (hc : (⟨1, ![R]⟩ : Shape).ShapeCasts ⟨2, ![R, 1]⟩) (hb : (⟨2, ![R, 1]⟩ : Shape).Broadcasts ⟨2, ![R, N]⟩)
    (p : Fin R) (j : Fin N) (row : Fin N → EReal) (ha : ∀ k, a (ix2 p k) = row k) :
    divf a (broadcastTo ⟨2, ![R, N]⟩
        (maximumf (sqrt (shapeCast ⟨2, ![R, 1]⟩ (multiReduction .add [1] ⟨1, ![R]⟩ (mulf a a) 0x00000000#32 hred hφ hacc) hc))
          (broadcast ⟨2, ![R, 1]⟩ (Scalar.ofBits .f32 fl))) hb) (ix2 p j)
      = Ideal.div (row j) (max (Ideal.sqrt (∑ k : Fin N, row k * row k)) (Ideal.ofBits .f32 fl)) := by
  refine (divf_apply _ _ _).trans ?_
  rw [ColumnLayout.broadcastTo_a1_ab_apply _ hb p j, ha j]
  refine congrArg (fun s => Ideal.div (row j) (max (Ideal.sqrt s) (Ideal.ofBits .f32 fl))) ?_
  refine (ColumnLayout.shapeCast_a_a1_apply _ hc p 0).trans ?_
  refine (Ideal.multiReduction_add_single (mulf a a) 0x00000000#32 hred hφ hacc (ix1 p)).trans ?_
  exact Finset.sum_congr rfl fun k _ => by
    rw [lift_row hred p k]
    exact (mulf_apply a a _).trans (by rw [ha k])

end Cert.RowLayers

end
-- ==== Proof.Body0.lean ====
/-
  The first gridded kernel's body, read at one entry of the block it stores.

  For a block of rows of the aggregated features `agg` (one row per node, 128 wide), the weights `w1` (128 × 128),
  the bias `b1` kept as a one-row array, the two per-node scales packed side by side in a two-column array `deg`
  (column 0: the scale applied after the first product, column 1: the scale applied before the second) and the
  weights `w2` (128 × 64), the body computes, for the node in row `r` and hidden unit `k`,

      hidden (r, k) = max ((∑ i, agg (r, i) · w1 (i, k)) · deg (r, 0) + b1 (0, k)) 0 · deg (r, 1)

  and stores `∑ k, hidden (r, k) · w2 (k, j)` at (r, j). Every step acts on each row by itself, so the same formula
  describes a block of rows and the whole array (`secondInput`, general in the number of rows), and a block whose
  rows are rows of a taller array computes that array's entries (`secondInput_rows`).

  The two products are matrix-unit products into a zero accumulator, which on the extended reals are the plain sums
  above; the casts of the operands to a narrower float format are the identity there. Nothing needs finiteness:
  both sides are the same sums of the same products in the same order.
-/
import proofs.«153941_j9234179686680_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import proofs.«153941_j9234179686680_2_alg».proof.Proof.LibRowsCols
import proofs.«153941_j9234179686680_2_alg».proof.Proof.LibRowwise
import proofs.«153941_j9234179686680_2_alg».proof.Proof.LibRowLayers

noncomputable section

namespace Cert.Gcn

open Idealize.ShloMosaic Idealize.ShloMosaic.ValueIdx Cert.Dense Cert.Lib.Rowwise Cert.KernelIdeal Cert.KernelIdeal.Gen

/-- The hidden unit `k` of the node in row `r`, already scaled for the second layer's product. -/
def hiddenRow {N : Nat} (agg : (⟨2, ![N, 128]⟩ : Shape).Idx → EReal) (w1 : (⟨2, ![128, 128]⟩ : Shape).Idx → EReal)
    (b1 : (⟨2, ![1, 128]⟩ : Shape).Idx → EReal) (deg : (⟨2, ![N, 2]⟩ : Shape).Idx → EReal) (r : Fin N) (k : Fin 128) : EReal :=
  max (rowsTimes agg w1 (ix2 r k) * deg (ix2 r (0 : Fin 2)) + b1 (ix2 (0 : Fin 1) k)) (Ideal.ofBits .f32 0x00000000#32)
    * deg (ix2 r (1 : Fin 2))

/-- What the first kernel leaves: the second layer's product, before aggregation. -/
def secondInput {N : Nat} (agg : (⟨2, ![N, 128]⟩ : Shape).Idx → EReal) (w1 : (⟨2, ![128, 128]⟩ : Shape).Idx → EReal)
    (b1 : (⟨2, ![1, 128]⟩ : Shape).Idx → EReal) (deg : (⟨2, ![N, 2]⟩ : Shape).Idx → EReal)
    (w2 : (⟨2, ![128, 64]⟩ : Shape).Idx → EReal) : (⟨2, ![N, 64]⟩ : Shape).Idx → EReal :=
  fun y => ∑ k : Fin 128, hiddenRow agg w1 b1 deg (y 0) k * w2 (ix2 k (y 1))

/-- Each row by itself: a block whose row `p` holds row `r` of a taller array (features and scales alike) computes
    that array's entries of row `r`. -/
theorem secondInput_rows {N R : Nat} (agg : (⟨2, ![N, 128]⟩ : Shape).Idx → EReal) (agg' : (⟨2, ![R, 128]⟩ : Shape).Idx → EReal)
    (w1 : (⟨2, ![128, 128]⟩ : Shape).Idx → EReal) (b1 : (⟨2, ![1, 128]⟩ : Shape).Idx → EReal)
    (deg : (⟨2, ![N, 2]⟩ : Shape).Idx → EReal) (deg' : (⟨2, ![R, 2]⟩ : Shape).Idx → EReal)
    (w2 : (⟨2, ![128, 64]⟩ : Shape).Idx → EReal) (p : Fin R) (r : Fin N) (j : Fin 64)
    (ha : ∀ i : Fin 128, agg' (ix2 p i) = agg (ix2 r i)) (hd : ∀ u : Fin 2, deg' (ix2 p u) = deg (ix2 r u)) :
    secondInput agg' w1 b1 deg' w2 (ix2 p j) = secondInput agg w1 b1 deg w2 (ix2 r j) := by
  refine Finset.sum_congr rfl fun k _ => ?_
  refine congrArg (· * w2 (ix2 k j)) ?_
  show max (rowsTimes agg' w1 (ix2 p k) * deg' (ix2 p 0) + b1 (ix2 0 k)) _ * deg' (ix2 p 1)
    = max (rowsTimes agg w1 (ix2 r k) * deg (ix2 r 0) + b1 (ix2 0 k)) _ * deg (ix2 r 1)
  rw [hd 0, hd 1, rowsTimes_of_rows agg w1 agg' w1 (ix2 p k) (ix2 r k) ha (fun _ => rfl)]

/-- The two printed contraction records are "rows times columns". -/
theorem rowsCols1 : RowsCols dot_S5000x128_S128x128_S5000x128_1_0_0_1_n_n :=
  ⟨rfl, rfl, fun _ _ => rfl, fun _ _ => rfl, fun _ _ => rfl, fun _ _ => rfl⟩
theorem rowsCols2 : RowsCols dot_S5000x128_S128x64_S5000x64_1_0_0_1_n_n :=
  ⟨rfl, rfl, fun _ _ => rfl, fun _ _ => rfl, fun _ _ => rfl, fun _ _ => rfl⟩

/-- A column `o` of the two-column array of scales, spread along the row, at (p, k): the scale of node `p`. -/
theorem scale_apply (x3 : (⟨2, ![5000, 2]⟩ : Shape).Idx → EReal) (o : Nat) (ho : o < 2)
    (hc : S5000x2.ShapeCasts S5000x2) (hs : S5000x2.Slices ![0, o] S5000x1) (hb : S5000x1.Broadcasts S5000x128)
    (p : Fin 5000) (k : Fin 128) :
    broadcastTo S5000x128 (extractStridedSlice S5000x1 ![0, o] (shapeCast S5000x2 x3 hc) hs) hb (ix2 p k)
      = x3 (ix2 p ⟨o, ho⟩) := by
  rw [shapeCast_self]
  refine (bcastTo_ix2 (R := 5000) (w := 128) _ hb p k).trans ?_
  exact slice_ix2 (R := 5000) (W := 2) (w := 1) o x3 hs p 0 (by show o + 0 < 2; omega)

/-- The body's stored value at (p, j). -/
theorem body0_apply (x0 : Vec Ideal S5000x128 .f32) (x1 : Vec Ideal S128x128 .f32) (x3 : Vec Ideal S5000x2 .f32)
    (x2 : Vec Ideal S1x128 .f32) (x4 : Vec Ideal S128x64 .f32) (p : Fin 5000) (j : Fin 64) :
    k0_pay1 (F := Ideal) x0 x1 x3 x2 x4 (ix2 p j) = secondInput x0 x1 x2 x3 x4 (ix2 p j) := by
  unfold k0_pay1
  refine (matmul_zero_apply rowsCols2 none _ _ (ix2 p j)).trans ?_
  refine Finset.sum_congr rfl fun k _ => ?_
  refine congrArg (fun a : EReal => a * x4 (ix2 k j)) ?_
  refine congrArg₂ (fun a b : EReal => a * b) (congrArg₂ (max : EReal → EReal → EReal) (congrArg₂ (fun a b : EReal => a + b) (congrArg₂ (fun a b : EReal => a * b) ?_ ?_) ?_) rfl) ?_
  · refine (matmul_zero_apply rowsCols1 none _ _ (ix2 p k)).trans ?_
    exact congrArg (fun a => rowsTimes a x1 (ix2 p k)) (shapeCast_self x0 _)
  · exact scale_apply x3 0 (by omega) _ _ _ p k
  · exact RowLayers.bias_apply x2 _ _ p k
  · exact scale_apply x3 1 (by omega) _ _ _ p k

/-- So the block the body stores is `secondInput` of the blocks it loaded. -/
theorem body0_eq (x0 : Vec Ideal S5000x128 .f32) (x1 : Vec Ideal S128x128 .f32) (x3 : Vec Ideal S5000x2 .f32)
    (x2 : Vec Ideal S1x128 .f32) (x4 : Vec Ideal S128x64 .f32) :
    k0_pay1 (F := Ideal) x0 x1 x3 x2 x4 = secondInput x0 x1 x2 x3 x4 := by
  funext y
  obtain ⟨p, j, rfl⟩ : ∃ (p : Fin 5000) (j : Fin 64), y = ix2 p j := ⟨y 0, y 1, eq_ix2 y⟩
  exact body0_apply x0 x1 x3 x2 x4 p j

end Cert.Gcn

end
-- ==== Proof.FirstKernelValue.lean ====
/-
  The first gridded kernel's output array, as one function of the arrays it is launched on.

  The kernel runs at ten grid points. At point `t` it reads rows 5000·t … 5000·t + 4999 of the aggregated features
  and of the two-column array of scales (its other three operands whole), and writes the same rows of its output.
  The body acts on each row by itself (Body0: `secondInput_rows`), so what point `t` writes back is rows
  5000·t … of `secondInput` of the WHOLE arrays; the ten blocks of rows tile the 50000 rows, so after the last
  write-back the output array is `secondInput` of the whole arrays. Stated at any contents `V` of the buffers at
  the kernel's launch.
-/
import proofs.«153941_j9234179686680_2_alg».proof.Proof.Gen.KernelIdeal.Frame
import proofs.«153941_j9234179686680_2_alg».proof.Proof.Body0

set_option maxRecDepth 16384

noncomputable section

namespace Cert.Gcn

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zeroOffsets : (![0, 0] : Fin 2 → Nat) = fun _ => 0 := funext fun a => by fin_cases a <;> rfl

/-- The printed index maps, decided once over the ten grid points: the row-blocked operands sit at block row `t`
    and block column 0, the whole operands at block (0, 0). -/
theorem blockIdx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of `secondInput` of the whole arrays. -/
theorem flushed0_eq (c : Dev nD) (t : Fin cfg0.N) :
    (dat0 V c).flushed 5 t = ((cfg0.win 5).blk t).view.read (Elt Ideal)
      (secondInput (V c main_v29) (V c main_arg3) (V c main_v13) (V c main_v32) (V c main_arg5)) := by
  show (cfg0.win 5).cut (grid0.coords t) ((dat0 V c).after 5 t) = _
  rw [after0_5]
  unfold out0_5
  rw [View.canon_unit_zero zeroOffsets]
  simp only [View.ld_unit_zero (S := S5000x128) zeroOffsets, View.ld_unit_zero (S := S128x128) zeroOffsets,
    View.ld_unit_zero (S := S1x128) zeroOffsets, View.ld_unit_zero (S := S5000x2) zeroOffsets,
    View.ld_unit_zero (S := S128x64) zeroOffsets]
  rw [body0_eq]
  obtain ⟨e00, e01, e10, e11, e20, e21, e30, e31, e40, e41, e50, e51⟩ := blockIdx0 t
  have ht : t.val < 10 := by have h := t.isLt; have hN : cfg0.N = 10 := N_0; omega
  funext (y : S5000x64.Idx)
  obtain ⟨p, j, rfl⟩ : ∃ (p : Fin 5000) (j : Fin 64), y = ix2 p j := ⟨y 0, y 1, eq_ix2 y⟩
  have hp := p.isLt
  have hj := j.isLt
  -- the output block's entry (p, j) is the array's entry (5000·t + p, j)
  have hy : ((cfg0.win 5).blk t).view.emb (ix2 p j) = ix2 (⟨t.val * 5000 + p.val, by omega⟩ : Fin 50000) j := by
    funext a; apply Fin.ext
    match a with
    | ⟨0, _⟩ => show win0_5.index t (0 : Fin 2) * 5000 + 1 * p.val = t.val * 5000 + p.val; omega
    | ⟨1, _⟩ => show win0_5.index t (1 : Fin 2) * 64 + 1 * j.val = j.val; omega
  show secondInput (iblk0 V c 0 t) (iblk0 V c 1 t) (iblk0 V c 2 t) (iblk0 V c 3 t) (iblk0 V c 4 t) (ix2 p j)
    = secondInput (V c main_v29) (V c main_arg3) (V c main_v13) (V c main_v32) (V c main_arg5) (((cfg0.win 5).blk t).view.emb (ix2 p j))
  rw [hy]
  -- the whole operands' one block is the array
  have h1 : iblk0 V c 1 t = (V c main_arg3 : S128x128.Idx → EReal) := by
    funext (x : S128x128.Idx)
    show V c main_arg3 (((cfg0.win 1).blk t).view.emb x) = V c main_arg3 x
    refine congrArg _ (funext fun a => Fin.ext ?_)
    match a with
    | ⟨0, _⟩ => show win0_1.index t (0 : Fin 2) * 128 + 1 * (x 0).val = (x 0).val; omega
    | ⟨1, _⟩ => show win0_1.index t (1 : Fin 2) * 128 + 1 * (x 1).val = (x 1).val; omega
  have h2 : iblk0 V c 2 t = (V c main_v13 : S1x128.Idx → EReal) := by
    funext (x : S1x128.Idx)
    show V c main_v13 (((cfg0.win 2).blk t).view.emb x) = V c main_v13 x
    refine congrArg _ (funext fun a => Fin.ext ?_)
    match a with
    | ⟨0, _⟩ => show win0_2.index t (0 : Fin 2) * 1 + 1 * (x 0).val = (x 0).val; omega
    | ⟨1, _⟩ => show win0_2.index t (1 : Fin 2) * 128 + 1 * (x 1).val = (x 1).val; omega
  have h4 : iblk0 V c 4 t = (V c main_arg5 : S128x64.Idx → EReal) := by
    funext (x : S128x64.Idx)
    show V c main_arg5 (((cfg0.win 4).blk t).view.emb x) = V c main_arg5 x
    refine congrArg _ (funext fun a => Fin.ext ?_)
    match a with
    | ⟨0, _⟩ => show win0_4.index t (0 : Fin 2) * 128 + 1 * (x 0).val = (x 0).val; omega
    | ⟨1, _⟩ => show win0_4.index t (1 : Fin 2) * 64 + 1 * (x 1).val = (x 1).val; omega
  rw [h1, h2, h4]
  -- the row-blocked operands' row p is the arrays' row 5000·t + p
  refine secondInput_rows (V c main_v29) (iblk0 V c 0 t) (V c main_arg3) (V c main_v13) (V c main_v32) (iblk0 V c 3 t)
    (V c main_arg5) p ⟨t.val * 5000 + p.val, by omega⟩ j (fun i => ?_) (fun u => ?_)
  · show V c main_v29 (((cfg0.win 0).blk t).view.emb (ix2 p i)) = V c main_v29 (ix2 ⟨t.val * 5000 + p.val, _⟩ i)
    refine congrArg _ (funext fun a => Fin.ext ?_)
    have hi := i.isLt
    match a with
    | ⟨0, _⟩ => show win0_0.index t (0 : Fin 2) * 5000 + 1 * p.val = t.val * 5000 + p.val; omega
    | ⟨1, _⟩ => show win0_0.index t (1 : Fin 2) * 128 + 1 * i.val = i.val; omega
  · show V c main_v32 (((cfg0.win 3).blk t).view.emb (ix2 p u)) = V c main_v32 (ix2 ⟨t.val * 5000 + p.val, _⟩ u)
    refine congrArg _ (funext fun a => Fin.ext ?_)
    have hu := u.isLt
    match a with
    | ⟨0, _⟩ => show win0_3.index t (0 : Fin 2) * 5000 + 1 * p.val = t.val * 5000 + p.val; omega
    | ⟨1, _⟩ => show win0_3.index t (1 : Fin 2) * 2 + 1 * u.val = u.val; omega

/-- An index of the output array is in point `t`'s block iff each coordinate is in the block's range. -/
theorem mem_blk0 (t : Fin cfg0.N) (i : S50000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v33).slice (win0_5.rect t)).set ↔ _
  rw [View.set_slice_whole, Rect.mem_set_unit]
  exact Iff.rfl

/-- Every row of the output array is in some point's block: row `r` in point `r / 5000`'s. -/
theorem cover0 (i : S50000x64.Idx) : ∃ t : Fin cfg0.N, (cfg0.win 5).flush t = true ∧ i ∈ ((cfg0.win 5).blk t).view.set := by
  have hi0 : (i 0).val < 50000 := (i 0).isLt
  have hi1 : (i 1).val < 64 := (i 1).isLt
  have hN : cfg0.N = 10 := N_0
  refine ⟨⟨(i 0).val / 5000, by rw [hN]; omega⟩, flush0_5 _, ?_⟩
  rw [mem_blk0]
  obtain ⟨-, -, -, -, -, -, -, -, -, -, e50, e51⟩ := blockIdx0 ⟨(i 0).val / 5000, by rw [hN]; omega⟩
  intro a
  match a with
  | ⟨0, _⟩ =>
    show win0_5.index _ (0 : Fin 2) * 5000 ≤ (i 0).val ∧ (i 0).val < win0_5.index _ (0 : Fin 2) * 5000 + 5000
    rw [e50]; show (i 0).val / 5000 * 5000 ≤ (i 0).val ∧ (i 0).val < (i 0).val / 5000 * 5000 + 5000; omega
  | ⟨1, _⟩ =>
    show win0_5.index _ (1 : Fin 2) * 64 ≤ (i 1).val ∧ (i 1).val < win0_5.index _ (1 : Fin 2) * 64 + 64
    rw [e51]; omega

/-- THE OUTPUT ARRAY after the first kernel's ten points. -/
theorem final0 (c : Dev nD) : (dat0 V c).arrAt 5 cfg0.N
    = secondInput (V c main_v29) (V c main_arg3) (V c main_v13) (V c main_v32) (V c main_arg5) :=
  (dat0 V c).arrAt_eq_of_cover 5 _ (fun t _ => flushed0_eq V c t) cover0

end Cert.Gcn

end
-- ==== Proof.LibRowSoftmax.lean ====
/-
  A row normalised by its exponentials, and a one-axis contraction as a sum — general in every extent.

  * `rowMax`, `expRow`, `softRow`: for a row `sc` of extended reals indexed by `Fin S`, its maximum taken from the f32
    word of −∞ (the word is carried, never evaluated, so that two programs that print the same word agree by
    reading), the exponential of each entry's distance to that maximum, and each exponential over the sum of the
    row's exponentials. This is the row-wise softmax as both a kernel's lane reductions and a host's `reduce`
    operations compute it on the extended reals.
  * `max_fold_max_self`: a fold of `max` started from `a` is already at least `a`, so a further maximum with `a`
    changes nothing (a host softmax takes the maximum with −∞ once more after reducing from −∞).
  * `contraction_sum`: a contraction over ONE axis of extent `K` — how a matrix unit's product into a zero
    accumulator, and the host's `dot_general`, read on the extended reals — is the sum over that axis's coordinate
    of the two operands' entries, once each entry at the renamed contraction index is named. Whatever the operands'
    layouts (either may be contracted along either axis): the caller supplies the two index equations.

  No finiteness is needed anywhere.
-/
import Idealize.ShloMosaic.PureOps.Ideal.Laws
import Idealize.ShloMosaic.Lib.ValueIdx

noncomputable section

namespace Cert.Attn

open Idealize.ShloMosaic Idealize.ShloMosaic.ValueIdx

/-- The maximum of a row, taken from the f32 word of −∞. -/
def rowMax {S : Nat} (sc : Fin S → EReal) : EReal :=
  (Finset.univ : Finset (Fin S)).fold max (Ideal.ofBits .f32 0xFF800000#32) sc

/-- The exponential of each entry's distance to the row's maximum. -/
def expRow {S : Nat} (sc : Fin S → EReal) : Fin S → EReal := fun s => Ideal.exp (sc s - rowMax sc)

/-- A row normalised: each exponential over the sum of the row's exponentials. -/
def softRow {S : Nat} (sc : Fin S → EReal) : Fin S → EReal :=
  fun s => Ideal.div (expRow sc s) (∑ s' : Fin S, expRow sc s')

/-- The maximum with the starting value changes nothing: a fold of `max` from `a` is already at least `a`. -/
theorem max_fold_max_self {ι : Type} (s : Finset ι) (a : EReal) (f : ι → EReal) :
    max a (s.fold max a f) = s.fold max a f :=
  max_eq_right (by rw [Finset.le_fold_max]; exact Or.inl le_rfl)

/-- A contraction over ONE axis of extent `K` is the sum over that axis's coordinate, once each operand's entry at
    the renamed contraction index is named. -/
theorem contraction_sum {K : Nat} {sl sr so : Shape} (d : DotDims sl sr so) (hr : d.contr.rank = 1)
    (hs : d.contr.size ⟨0, by omega⟩ = K) (l : sl.Idx → EReal) (r : sr.Idx → EReal) (i : so.Idx) (L R : Fin K → EReal)
    (hl : ∀ k : Fin K, l (d.lhsIdx i ((contrEquiv1 d K hr hs).symm k)) = L k)
    (hw : ∀ k : Fin K, r (d.rhsIdx i ((contrEquiv1 d K hr hs).symm k)) = R k) :
    ∑ q : d.contr.Idx, l (d.lhsIdx i q) * r (d.rhsIdx i q) = ∑ k : Fin K, L k * R k := by
  rw [← Equiv.sum_comp (contrEquiv1 d K hr hs).symm]
  exact Finset.sum_congr rfl fun k _ => by rw [hl k, hw k]

end Cert.Attn

end
-- ==== Proof.Body1.lean ====
/-
  The second gridded kernel's body, read at one entry of the block it stores.

  For a block of rows of the second aggregation `agg` (64 wide), the per-node scale kept as a one-column array `din`
  and the bias `b2` kept as a one-row array, the body forms the row

      z (j) = agg (r, j) · din (r, 0) + b2 (0, j)

  of node `r` and stores its log-softmax: with `M` the row's maximum (taken from the f32 word of −∞, which is carried
  and never evaluated), `(z (j) − M) − log (∑ s, exp (z (s) − M))`. The row maximum and the row sum are lane
  reductions, which on the extended reals are the fold of `max` and the plain sum over the row. Every step acts on
  each row by itself, so the same formula describes a block of rows and the whole array (`outputs`), and a block
  whose rows are rows of a taller array computes that array's entries (`outputs_rows`). Nothing needs finiteness.
-/
import proofs.«153941_j9234179686680_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import proofs.«153941_j9234179686680_2_alg».proof.Proof.LibColumnLayout
import proofs.«153941_j9234179686680_2_alg».proof.Proof.LibRowwise
import proofs.«153941_j9234179686680_2_alg».proof.Proof.LibRowLayers
import proofs.«153941_j9234179686680_2_alg».proof.Proof.LibRowSoftmax

noncomputable section

namespace Cert.Gcn

open Idealize.ShloMosaic Idealize.ShloMosaic.ValueIdx Cert.Lib.Rowwise Cert.Attn Cert.KernelIdeal Cert.KernelIdeal.Gen

/-- The scaled and biased row of node `r`. -/
def scoreRow {N : Nat} (agg : (⟨2, ![N, 64]⟩ : Shape).Idx → EReal) (din : (⟨2, ![N, 1]⟩ : Shape).Idx → EReal)
    (b2 : (⟨2, ![1, 64]⟩ : Shape).Idx → EReal) (r : Fin N) : Fin 64 → EReal :=
  fun j => agg (ix2 r j) * din (ix2 r (0 : Fin 1)) + b2 (ix2 (0 : Fin 1) j)

/-- The log-softmax of a row: each entry's distance to the row's maximum, less the logarithm of the sum of the
    exponentials of those distances. -/
def logSoftRow {S : Nat} (z : Fin S → EReal) (j : Fin S) : EReal :=
  (z j - rowMax z) - Ideal.log (∑ s : Fin S, Ideal.exp (z s - rowMax z))

/-- What the second kernel leaves: the row-wise log-softmax of the scaled and biased aggregation. -/
def outputs {N : Nat} (agg : (⟨2, ![N, 64]⟩ : Shape).Idx → EReal) (din : (⟨2, ![N, 1]⟩ : Shape).Idx → EReal)
    (b2 : (⟨2, ![1, 64]⟩ : Shape).Idx → EReal) : (⟨2, ![N, 64]⟩ : Shape).Idx → EReal :=
  fun y => logSoftRow (scoreRow agg din b2 (y 0)) (y 1)

/-- Each row by itself. -/
theorem outputs_rows {N R : Nat} (agg : (⟨2, ![N, 64]⟩ : Shape).Idx → EReal) (agg' : (⟨2, ![R, 64]⟩ : Shape).Idx → EReal)
    (din : (⟨2, ![N, 1]⟩ : Shape).Idx → EReal) (din' : (⟨2, ![R, 1]⟩ : Shape).Idx → EReal)
    (b2 : (⟨2, ![1, 64]⟩ : Shape).Idx → EReal) (p : Fin R) (r : Fin N) (j : Fin 64)
    (ha : ∀ s : Fin 64, agg' (ix2 p s) = agg (ix2 r s)) (hd : din' (ix2 p 0) = din (ix2 r 0)) :
    outputs agg' din' b2 (ix2 p j) = outputs agg din b2 (ix2 r j) := by
  have e : scoreRow agg' din' b2 p = scoreRow agg din b2 r := funext fun s => by
    show agg' (ix2 p s) * din' (ix2 p 0) + _ = agg (ix2 r s) * din (ix2 r 0) + _
    rw [ha s, hd]
  show logSoftRow (scoreRow agg' din' b2 p) j = logSoftRow (scoreRow agg din b2 r) j
  rw [e]

/-- The index a reduction along the row inserts: (p, s). -/
theorem lift_row64 (hred : S5000x64.Reduces [1] S5000) (p : Fin 5000) (s : Fin (S5000x64.size 1)) :
    hred.lift (ix1 p) s = ix2 p (s : Fin 64) := by
  funext x; apply Fin.ext
  match x with
  | ⟨0, _⟩ => rfl
  | ⟨1, _⟩ => rfl

/-- A lane reduction's result kept as a column and spread along the row, at (p, j): the reduction's entry for row `p`. -/
theorem spread_apply (v : (⟨1, ![5000]⟩ : Shape).Idx → EReal) (hc : S5000.ShapeCasts S5000x1) (hb : S5000x1.Broadcasts S5000x64)
    (p : Fin 5000) (j : Fin 64) :
    broadcastTo S5000x64 (shapeCast S5000x1 v hc) hb (ix2 p j) = v (ix1 p) :=
  ColumnLayout.column_broadcast_apply (a := 5000) (b := 64) v hc hb p j

/-- The body's stored value at (p, j). -/
theorem body1_apply (x0 : Vec Ideal S5000x64 .f32) (x1 : Vec Ideal S5000x1 .f32) (x2 : Vec Ideal S1x64 .f32)
    (p : Fin 5000) (j : Fin 64) :
    k1_pay1 (F := Ideal) x0 x1 x2 (ix2 p j) = outputs x0 x1 x2 (ix2 p j) := by
  -- the scaled and biased block, entry by entry
  have hz : ∀ (hc0 : S5000x64.ShapeCasts S5000x64) (hc1 : S5000x1.ShapeCasts S5000x1) (hb1 : S5000x1.Broadcasts S5000x64)
      (hc2 : S1x64.ShapeCasts S1x64) (hb2 : S1x64.Broadcasts S5000x64) (s : Fin 64),
      addf (F := Ideal) (φ := .f32) (mulf (F := Ideal) (φ := .f32) (shapeCast S5000x64 x0 hc0) (broadcastTo S5000x64 (shapeCast S5000x1 x1 hc1) hb1))
        (broadcastTo S5000x64 (shapeCast S1x64 x2 hc2) hb2) (ix2 p s) = scoreRow x0 x1 x2 p s := by
    intro hc0 hc1 hb1 hc2 hb2 s
    rw [shapeCast_self, shapeCast_self]
    refine congrArg₂ (fun a b : EReal => a + b) (congrArg₂ (fun a b : EReal => a * b) rfl ?_) ?_
    · exact bcastTo_ix2 (R := 5000) (w := 64) x1 hb1 p s
    · exact RowLayers.bias_apply x2 hc2 hb2 p s
  unfold k1_pay1
  -- the row maximum
  have hmax : ∀ (hc0 : S5000x64.ShapeCasts S5000x64) (hc1 : S5000x1.ShapeCasts S5000x1) (hb1 : S5000x1.Broadcasts S5000x64)
      (hc2 : S1x64.ShapeCasts S1x64) (hb2 : S1x64.Broadcasts S5000x64) (hred : S5000x64.Reduces [1] S5000)
      (hφ : FKind.Formats .f32) (hacc : (0xFF800000#32 : BitVec 32) = FKind.maximumf.neutral .f32 hφ),
      multiReduction (F := Ideal) (φ := .f32) .maximumf [1] S5000 (addf (F := Ideal) (φ := .f32) (mulf (F := Ideal) (φ := .f32) (shapeCast S5000x64 x0 hc0) (broadcastTo S5000x64 (shapeCast S5000x1 x1 hc1) hb1))
        (broadcastTo S5000x64 (shapeCast S1x64 x2 hc2) hb2)) 0xFF800000#32 hred hφ hacc (ix1 p) = rowMax (scoreRow x0 x1 x2 p) := by
    intro hc0 hc1 hb1 hc2 hb2 hred hφ hacc
    refine (Ideal.multiReduction_maximumf_single _ _ hred hφ hacc (ix1 p)).trans ?_
    refine congrArg (fun f => Finset.fold max (Ideal.ofBits .f32 0xFF800000#32) f (Finset.univ : Finset (Fin 64))) ?_
    funext s
    show addf _ _ (hred.lift (ix1 p) s) = _
    rw [lift_row64 hred p s]
    exact hz hc0 hc1 hb1 hc2 hb2 s
  -- the shifted block, entry by entry
  have hshift : ∀ (hc0 : S5000x64.ShapeCasts S5000x64) (hc1 : S5000x1.ShapeCasts S5000x1) (hb1 : S5000x1.Broadcasts S5000x64)
      (hc2 : S1x64.ShapeCasts S1x64) (hb2 : S1x64.Broadcasts S5000x64) (hred : S5000x64.Reduces [1] S5000)
      (hφ : FKind.Formats .f32) (hacc : (0xFF800000#32 : BitVec 32) = FKind.maximumf.neutral .f32 hφ)
      (hc : S5000.ShapeCasts S5000x1) (hb : S5000x1.Broadcasts S5000x64) (s : Fin 64),
      subf (F := Ideal) (φ := .f32) (addf (F := Ideal) (φ := .f32) (mulf (F := Ideal) (φ := .f32) (shapeCast S5000x64 x0 hc0) (broadcastTo S5000x64 (shapeCast S5000x1 x1 hc1) hb1))
          (broadcastTo S5000x64 (shapeCast S1x64 x2 hc2) hb2))
        (broadcastTo S5000x64 (shapeCast S5000x1 (multiReduction (F := Ideal) (φ := .f32) .maximumf [1] S5000
          (addf (F := Ideal) (φ := .f32) (mulf (F := Ideal) (φ := .f32) (shapeCast S5000x64 x0 hc0) (broadcastTo S5000x64 (shapeCast S5000x1 x1 hc1) hb1))
            (broadcastTo S5000x64 (shapeCast S1x64 x2 hc2) hb2)) 0xFF800000#32 hred hφ hacc) hc) hb) (ix2 p s)
        = scoreRow x0 x1 x2 p s - rowMax (scoreRow x0 x1 x2 p) := by
    intro hc0 hc1 hb1 hc2 hb2 hred hφ hacc hc hb s
    refine congrArg₂ (fun a b : EReal => a - b) (hz hc0 hc1 hb1 hc2 hb2 s) ?_
    exact (spread_apply _ hc hb p s).trans (hmax hc0 hc1 hb1 hc2 hb2 hred hφ hacc)
  refine congrArg₂ (fun a b : EReal => a - b) (hshift _ _ _ _ _ _ _ _ _ _ j) ?_
  refine (bcastTo_ix2 (R := 5000) (w := 64) _ _ p j).trans ?_
  refine congrArg Ideal.log ?_
  refine (ColumnLayout.shapeCast_a_a1_apply (a := 5000) _ _ p 0).trans ?_
  refine (Ideal.multiReduction_add_single _ _ _ _ _ (ix1 p)).trans ?_
  refine Finset.sum_congr rfl fun s _ => ?_
  rw [lift_row64 _ p s]
  exact congrArg Ideal.exp (hshift _ _ _ _ _ _ _ _ _ _ s)

/-- So the block the body stores is `outputs` of the blocks it loaded. -/
theorem body1_eq (x0 : Vec Ideal S5000x64 .f32) (x1 : Vec Ideal S5000x1 .f32) (x2 : Vec Ideal S1x64 .f32) :
    k1_pay1 (F := Ideal) x0 x1 x2 = outputs x0 x1 x2 := by
  funext y
  obtain ⟨p, j, rfl⟩ : ∃ (p : Fin 5000) (j : Fin 64), y = ix2 p j := ⟨y 0, y 1, eq_ix2 y⟩
  exact body1_apply x0 x1 x2 p j

end Cert.Gcn

end
-- ==== Proof.SecondKernelValue.lean ====
/-
  The second gridded kernel's output array, as one function of the arrays it is launched on.

  Ten grid points again: at point `t` the kernel reads rows 5000·t … 5000·t + 4999 of the second aggregation and of
  the one-column array of scales (the bias row whole) and writes the same rows of the result. The body acts on each
  row by itself (Body1: `outputs_rows`), so what point `t` writes back is those rows of `outputs` of the WHOLE arrays,
  and the ten blocks tile the 50000 rows. Stated at any contents `V` of the buffers at the kernel's launch.
-/
import proofs.«153941_j9234179686680_2_alg».proof.Proof.Gen.KernelIdeal.Frame
import proofs.«153941_j9234179686680_2_alg».proof.Proof.Body1

set_option maxRecDepth 16384

noncomputable section

namespace Cert.Gcn

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zeroOffsets' : (![0, 0] : Fin 2 → Nat) = fun _ => 0 := funext fun a => by fin_cases a <;> rfl

/-- The printed index maps, decided once over the ten grid points. -/
theorem blockIdx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of `outputs` of the whole arrays. -/
theorem flushed1_eq (c : Dev nD) (t : Fin cfg1.N) :
    (dat1 V c).flushed 3 t = ((cfg1.win 3).blk t).view.read (Elt Ideal)
      (outputs (V c main_v45) (V c main_v46) (V c main_v14)) := by
  show (cfg1.win 3).cut (grid1.coords t) ((dat1 V c).after 3 t) = _
  rw [after1_3]
  unfold out1_3
  rw [View.canon_unit_zero zeroOffsets']
  simp only [View.ld_unit_zero (S := S5000x64) zeroOffsets', View.ld_unit_zero (S := S5000x1) zeroOffsets',
    View.ld_unit_zero (S := S1x64) zeroOffsets']
  rw [body1_eq]
  obtain ⟨e00, e01, e10, e11, e20, e21, e30, e31⟩ := blockIdx1 t
  have ht : t.val < 10 := by have h := t.isLt; have hN : cfg1.N = 10 := N_1; omega
  funext (y : S5000x64.Idx)
  obtain ⟨p, j, rfl⟩ : ∃ (p : Fin 5000) (j : Fin 64), y = ix2 p j := ⟨y 0, y 1, eq_ix2 y⟩
  have hp := p.isLt
  have hj := j.isLt
  have hy : ((cfg1.win 3).blk t).view.emb (ix2 p j) = ix2 (⟨t.val * 5000 + p.val, by omega⟩ : Fin 50000) j := by
    funext a; apply Fin.ext
    match a with
    | ⟨0, _⟩ => show win1_3.index t (0 : Fin 2) * 5000 + 1 * p.val = t.val * 5000 + p.val; omega
    | ⟨1, _⟩ => show win1_3.index t (1 : Fin 2) * 64 + 1 * j.val = j.val; omega
  show outputs (iblk1 V c 0 t) (iblk1 V c 1 t) (iblk1 V c 2 t) (ix2 p j)
    = outputs (V c main_v45) (V c main_v46) (V c main_v14) (((cfg1.win 3).blk t).view.emb (ix2 p j))
  rw [hy]
  have h2 : iblk1 V c 2 t = (V c main_v14 : S1x64.Idx → EReal) := by
    funext (x : S1x64.Idx)
    show V c main_v14 (((cfg1.win 2).blk t).view.emb x) = V c main_v14 x
    refine congrArg _ (funext fun a => Fin.ext ?_)
    match a with
    | ⟨0, _⟩ => show win1_2.index t (0 : Fin 2) * 1 + 1 * (x 0).val = (x 0).val; omega
    | ⟨1, _⟩ => show win1_2.index t (1 : Fin 2) * 64 + 1 * (x 1).val = (x 1).val; omega
  rw [h2]
  refine outputs_rows (V c main_v45) (iblk1 V c 0 t) (V c main_v46) (iblk1 V c 1 t) (V c main_v14)
    p ⟨t.val * 5000 + p.val, by omega⟩ j (fun s => ?_) ?_
  · show V c main_v45 (((cfg1.win 0).blk t).view.emb (ix2 p s)) = V c main_v45 (ix2 ⟨t.val * 5000 + p.val, _⟩ s)
    refine congrArg _ (funext fun a => Fin.ext ?_)
    have hs := s.isLt
    match a with
    | ⟨0, _⟩ => show win1_0.index t (0 : Fin 2) * 5000 + 1 * p.val = t.val * 5000 + p.val; omega
    | ⟨1, _⟩ => show win1_0.index t (1 : Fin 2) * 64 + 1 * s.val = s.val; omega
  · show V c main_v46 (((cfg1.win 1).blk t).view.emb (ix2 p 0)) = V c main_v46 (ix2 ⟨t.val * 5000 + p.val, _⟩ 0)
    refine congrArg _ (funext fun a => Fin.ext ?_)
    match a with
    | ⟨0, _⟩ => show win1_1.index t (0 : Fin 2) * 5000 + 1 * p.val = t.val * 5000 + p.val; omega
    | ⟨1, _⟩ => show win1_1.index t (1 : Fin 2) * 1 + 1 * 0 = 0; omega

/-- An index of the result array is in point `t`'s block iff each coordinate is in the block's range. -/
theorem mem_blk1 (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v47).slice (win1_3.rect t)).set ↔ _
  rw [View.set_slice_whole, Rect.mem_set_unit]
  exact Iff.rfl

/-- Every row of the result array is in some point's block: row `r` in point `r / 5000`'s. -/
theorem cover1 (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  have hN : cfg1.N = 10 := N_1
  refine ⟨⟨(i 0).val / 5000, by rw [hN]; omega⟩, flush1_3 _, ?_⟩
  rw [mem_blk1]
  obtain ⟨-, -, -, -, -, -, e30, e31⟩ := blockIdx1 ⟨(i 0).val / 5000, by rw [hN]; omega⟩
  intro a
  match a with
  | ⟨0, _⟩ =>
    show win1_3.index _ (0 : Fin 2) * 5000 ≤ (i 0).val ∧ (i 0).val < win1_3.index _ (0 : Fin 2) * 5000 + 5000
    rw [e30]; show (i 0).val / 5000 * 5000 ≤ (i 0).val ∧ (i 0).val < (i 0).val / 5000 * 5000 + 5000; omega
  | ⟨1, _⟩ =>
    show win1_3.index _ (1 : Fin 2) * 64 ≤ (i 1).val ∧ (i 1).val < win1_3.index _ (1 : Fin 2) * 64 + 64
    rw [e31]; omega

/-- THE RESULT ARRAY after the second kernel's ten points. -/
theorem final1 (c : Dev nD) : (dat1 V c).arrAt 3 cfg1.N = outputs (V c main_v45) (V c main_v46) (V c main_v14) :=
  (dat1 V c).arrAt_eq_of_cover 3 _ (fun t _ => flushed1_eq V c t) cover1

end Cert.Gcn

end
-- ==== Proof.LibHostColumn.lean ====
/-
  A vector repeated into a matrix by the host's two broadcasts.

  The host repeats a vector along a new axis in two steps: it first gives the vector a unit axis (`broadcast_in_dim`
  of [n] into [n, 1] along dimension 0, or of [b] into [1, b] along dimension 1), then repeats the unit axis
  (`broadcast_in_dim` of [n, 1] or [1, b] into [n, b] along dimensions 0 and 1). Read at (p, k) the result is the
  vector at the coordinate it was laid along: the row `p` for a column, the column `k` for a row. A size-one axis
  of the operand is read at 0 whatever the result's coordinate, which is why the case of a vector of one entry needs
  no separate statement.
-/
import Idealize.ShloMosaic.Lib.Pipeline.Value
import Idealize.ShloMosaic.Lib.ValueIdx

namespace Idealize.ShloMosaic.HostColumn

open Idealize.ShloMosaic Idealize.ShloMosaic.ValueIdx

variable {α : Type}

/-- A vector of `n` entries kept as an [n, 1] column and that column repeated to [n, b], both by the host's
    `broadcast_in_dim`, reads the vector at the row. -/
theorem column_apply {n b : Nat} (x : (⟨1, ![n]⟩ : Shape).Idx → α)
    (b1 : (⟨1, ![n]⟩ : Shape).BroadcastsInDim ⟨2, ![n, 1]⟩ ![0])
    (b2 : (⟨2, ![n, 1]⟩ : Shape).BroadcastsInDim ⟨2, ![n, b]⟩ ![0, 1]) (p : Fin n) (k : Fin b) :
    broadcastInDim ⟨2, ![n, b]⟩ ![0, 1] b2 (broadcastInDim ⟨2, ![n, 1]⟩ ![0] b1 x) (ix2 p k) = x (ix1 p) := by
  refine (broadcastInDim_apply _ b2 _ (ix2 p k) (ix2 p (0 : Fin 1)) fun a => ?_).trans
    (broadcastInDim_apply _ b1 x (ix2 p (0 : Fin 1)) (ix1 p) fun a => ?_)
  · match a with
    | ⟨0, _⟩ =>
      show p.val = if n = 1 then 0 else p.val
      split
      · have := p.isLt; omega
      · rfl
    | ⟨1, _⟩ => rfl
  · match a with
    | ⟨0, _⟩ =>
      show p.val = if n = 1 then 0 else p.val
      split
      · have := p.isLt; omega
      · rfl

/-- A vector of `b` entries given a leading unit axis and repeated down `n` rows, both by the host's
    `broadcast_in_dim`, reads the vector at the column. -/
theorem row_apply {n b : Nat} (x : (⟨1, ![b]⟩ : Shape).Idx → α)
    (b3 : (⟨1, ![b]⟩ : Shape).BroadcastsInDim ⟨2, ![1, b]⟩ ![1])
    (b4 : (⟨2, ![1, b]⟩ : Shape).BroadcastsInDim ⟨2, ![n, b]⟩ ![0, 1]) (p : Fin n) (j : Fin b) :
    broadcastInDim ⟨2, ![n, b]⟩ ![0, 1] b4 (broadcastInDim ⟨2, ![1, b]⟩ ![1] b3 x) (ix2 p j) = x (ix1 j) := by
  refine (broadcastInDim_apply _ b4 _ (ix2 p j) (ix2 (0 : Fin 1) j) fun a => ?_).trans
    (broadcastInDim_apply _ b3 x (ix2 (0 : Fin 1) j) (ix1 j) fun a => ?_)
  · match a with
    | ⟨0, _⟩ => rfl
    | ⟨1, _⟩ =>
      show j.val = if b = 1 then 0 else j.val
      split
      · have := j.isLt; omega
      · rfl
  · match a with
    | ⟨0, _⟩ =>
      show j.val = if b = 1 then 0 else j.val
      split
      · have := j.isLt; omega
      · rfl

end Idealize.ShloMosaic.HostColumn
-- ==== Proof.HostLayers.lean ====
/-
  The two gridded kernels' functions against the same layers written with the host's whole-array operations.

  Over ABSTRACT arrays (any number of nodes N): `secondInput` (Body0) — the aggregated features `A`, the weights, the
  first bias kept as a one-row array, the two per-node factors `u`, `v` laid side by side, the second weights — is the
  host's `dot_general`, multiply by the first factor spread along the rows, add the bias spread down the rows, maximum
  with zero, multiply by the second factor, `dot_general`; and `outputs` (Body1) — an array `Z`, a per-node factor
  `w` kept as a one-column array, a bias kept as a one-row array — is the host's multiply, add and row-wise
  log-softmax (row maximum reduced from −∞ and taken once more against −∞, subtract, exponential, row sum, logarithm,
  subtract). Index by index both sides are the same expression; the host's `dot_general` is the plain sum of
  products, its two-step broadcasts read a vector at the row or at the column, and the second maximum against −∞
  changes nothing. Nothing needs finiteness.
-/
import proofs.«153941_j9234179686680_2_alg».proof.Proof.Body0
import proofs.«153941_j9234179686680_2_alg».proof.Proof.Body1
import proofs.«153941_j9234179686680_2_alg».proof.Proof.LibHostColumn

noncomputable section

namespace Cert.Gcn

open Idealize.ShloMosaic Idealize.ShloMosaic.ValueIdx Cert.Dense Cert.Lib.Rowwise Cert.Attn

/-- A vector kept as a one-column array by the host's `broadcast_in_dim`, at (r, 0): the vector at r. -/
theorem column_at {N : Nat} (x : (⟨1, ![N]⟩ : Shape).Idx → EReal) (hb : (⟨1, ![N]⟩ : Shape).BroadcastsInDim ⟨2, ![N, 1]⟩ ![0]) (r : Fin N) :
    broadcastInDim ⟨2, ![N, 1]⟩ ![0] hb x (ix2 r (0 : Fin 1)) = x (ix1 r) :=
  broadcastInDim_apply _ hb x (ix2 r (0 : Fin 1)) (ix1 r) (fun a => match a with
    | ⟨0, _⟩ => by
      show r.val = if N = 1 then 0 else r.val
      split
      · have := r.isLt; omega
      · rfl)

/-- Two vectors laid side by side as the columns of an N × 2 array, read at a row. -/
theorem sideBySide_at {N : Nat} (u v : (⟨1, ![N]⟩ : Shape).Idx → EReal) (hb : (⟨1, ![N]⟩ : Shape).BroadcastsInDim ⟨2, ![N, 1]⟩ ![0])
    (hcat : Shape.Concatenates [(⟨2, ![N, 1]⟩ : Shape), ⟨2, ![N, 1]⟩] ⟨2, ![N, 2]⟩ 1) (r : Fin N) :
    concatenate (⟨2, ![N, 2]⟩ : Shape) 1 [⟨⟨2, ![N, 1]⟩, broadcastInDim ⟨2, ![N, 1]⟩ ![0] hb u⟩,
        ⟨⟨2, ![N, 1]⟩, broadcastInDim ⟨2, ![N, 1]⟩ ![0] hb v⟩] hcat (ix2 r (0 : Fin 2)) = u (ix1 r)
    ∧ concatenate (⟨2, ![N, 2]⟩ : Shape) 1 [⟨⟨2, ![N, 1]⟩, broadcastInDim ⟨2, ![N, 1]⟩ ![0] hb u⟩,
        ⟨⟨2, ![N, 1]⟩, broadcastInDim ⟨2, ![N, 1]⟩ ![0] hb v⟩] hcat (ix2 r (1 : Fin 2)) = v (ix1 r) := by
  constructor
  · exact (concatCols_ix2 (R := N) (C := 2) [⟨⟨2, ![N, 1]⟩, broadcastInDim ⟨2, ![N, 1]⟩ ![0] hb u⟩, ⟨⟨2, ![N, 1]⟩, broadcastInDim ⟨2, ![N, 1]⟩ ![0] hb v⟩]
      hcat [1, 1] rfl 0 (Nat.zero_lt_succ 1) 1 _ rfl 0 rfl r 0 (by decide) (by decide)).trans (column_at u hb r)
  · exact (concatCols_ix2 (R := N) (C := 2) [⟨⟨2, ![N, 1]⟩, broadcastInDim ⟨2, ![N, 1]⟩ ![0] hb u⟩, ⟨⟨2, ![N, 1]⟩, broadcastInDim ⟨2, ![N, 1]⟩ ![0] hb v⟩]
      hcat [1, 1] rfl 1 (Nat.lt_succ_self 1) 1 _ rfl 1 rfl r 1 (by decide) (by decide)).trans (column_at v hb r)

/-- THE FIRST KERNEL'S FUNCTION is the host's two dense layers with the scalings, bias and rectifier between them. -/
theorem secondInput_eq_host {N : Nat}
    (d1 : DotDims ⟨2, ![N, 128]⟩ ⟨2, ![128, 128]⟩ ⟨2, ![N, 128]⟩) (h1 : RowsCols d1)
    (d2 : DotDims ⟨2, ![N, 128]⟩ ⟨2, ![128, 64]⟩ ⟨2, ![N, 64]⟩) (h2 : RowsCols d2)
    (A : FVec Ideal ⟨2, ![N, 128]⟩ .f32) (w1 : FVec Ideal ⟨2, ![128, 128]⟩ .f32) (b : FVec Ideal ⟨1, ![128]⟩ .f32)
    (u v : FVec Ideal ⟨1, ![N]⟩ .f32) (w2 : FVec Ideal ⟨2, ![128, 64]⟩ .f32)
    (hsc : (⟨1, ![128]⟩ : Shape).ShapeCasts ⟨2, ![1, 128]⟩)
    (hb : (⟨1, ![N]⟩ : Shape).BroadcastsInDim ⟨2, ![N, 1]⟩ ![0])
    (hcat : Shape.Concatenates [(⟨2, ![N, 1]⟩ : Shape), ⟨2, ![N, 1]⟩] ⟨2, ![N, 2]⟩ 1)
    (hbb : (⟨2, ![N, 1]⟩ : Shape).BroadcastsInDim ⟨2, ![N, 128]⟩ ![0, 1])
    (hr1 : (⟨1, ![128]⟩ : Shape).BroadcastsInDim ⟨2, ![1, 128]⟩ ![1])
    (hr2 : (⟨2, ![1, 128]⟩ : Shape).BroadcastsInDim ⟨2, ![N, 128]⟩ ![0, 1])
    (hz : (⟨0, ![]⟩ : Shape).BroadcastsInDim ⟨2, ![N, 128]⟩ ![]) :
    secondInput A w1 (shapeCast ⟨2, ![1, 128]⟩ b hsc)
      (concatenate (⟨2, ![N, 2]⟩ : Shape) 1 [⟨⟨2, ![N, 1]⟩, broadcastInDim ⟨2, ![N, 1]⟩ ![0] hb u⟩,
        ⟨⟨2, ![N, 1]⟩, broadcastInDim ⟨2, ![N, 1]⟩ ![0] hb v⟩] hcat) w2
      = Host.dotGeneral d2 none
          (mulf (F := Ideal) (φ := .f32)
            (maximumf (F := Ideal) (φ := .f32)
              (addf (F := Ideal) (φ := .f32)
                (mulf (F := Ideal) (φ := .f32) (Host.dotGeneral d1 none A w1)
                  (broadcastInDim ⟨2, ![N, 128]⟩ ![0, 1] hbb (broadcastInDim ⟨2, ![N, 1]⟩ ![0] hb u)))
                (broadcastInDim ⟨2, ![N, 128]⟩ ![0, 1] hr2 (broadcastInDim ⟨2, ![1, 128]⟩ ![1] hr1 b)))
              (broadcastInDim ⟨2, ![N, 128]⟩ ![] hz (constant (F := Ideal) ⟨0, ![]⟩ .f32 0x00000000#32)))
            (broadcastInDim ⟨2, ![N, 128]⟩ ![0, 1] hbb (broadcastInDim ⟨2, ![N, 1]⟩ ![0] hb v))) w2 := by
  funext y
  obtain ⟨r, j, rfl⟩ : ∃ (r : Fin N) (j : Fin 64), y = ix2 r j := ⟨y 0, y 1, eq_ix2 y⟩
  obtain ⟨hs0, hs1⟩ := sideBySide_at u v hb hcat r
  refine Eq.trans ?_ (dotGeneral_apply h2 none _ w2 (ix2 r j)).symm
  refine Finset.sum_congr rfl fun k _ => ?_
  refine congrArg (fun a : EReal => a * w2 (ix2 k j)) ?_
  refine congrArg₂ (fun a b : EReal => a * b) (congrArg₂ (max : EReal → EReal → EReal)
    (congrArg₂ (fun a b : EReal => a + b) (congrArg₂ (fun a b : EReal => a * b) ?_ ?_) ?_) ?_) ?_
  · exact (dotGeneral_apply h1 none A w1 (ix2 r k)).symm
  · exact hs0.trans (HostColumn.column_apply u hb hbb r k).symm
  · exact (shapeCast_a_1a_apply b hsc 0 k).trans (HostColumn.row_apply b hr1 hr2 r k).symm
  · exact (broadcastInDim_apply _ hz (constant (F := Ideal) ⟨0, ![]⟩ .f32 0x00000000#32) (ix2 r k) ix0 (fun a => a.elim0)).symm
  · exact hs1.trans (HostColumn.column_apply v hb hbb r k).symm

/-- The index a reduction along the row inserts: (r, s). -/
theorem lift_rowN {N : Nat} (hred : (⟨2, ![N, 64]⟩ : Shape).Reduces [1] ⟨1, ![N]⟩) (r : Fin N)
    (s : Fin ((⟨2, ![N, 64]⟩ : Shape).size 1)) : hred.lift (ix1 r) s = ix2 r (s : Fin 64) := by
  funext x; apply Fin.ext
  match x with
  | ⟨0, _⟩ => rfl
  | ⟨1, _⟩ => rfl

/-- THE SECOND KERNEL'S FUNCTION is the host's scale, bias and row-wise log-softmax. The host's intermediate
    arrays are named by hypotheses (`Y` the scaled and biased array, `M` the row maxima, `Y5` the shifted array,
    `L` the logarithms of the row sums) so that a caller closes each by unfolding one layer of its own definitions. -/
theorem outputs_eq_host {N : Nat} (Z : FVec Ideal ⟨2, ![N, 64]⟩ .f32) (w : FVec Ideal ⟨1, ![N]⟩ .f32) (b : FVec Ideal ⟨1, ![64]⟩ .f32)
    (hc1 : (⟨1, ![N]⟩ : Shape).ShapeCasts ⟨2, ![N, 1]⟩) (hc2 : (⟨1, ![64]⟩ : Shape).ShapeCasts ⟨2, ![1, 64]⟩)
    (hb : (⟨1, ![N]⟩ : Shape).BroadcastsInDim ⟨2, ![N, 1]⟩ ![0])
    (hbb : (⟨2, ![N, 1]⟩ : Shape).BroadcastsInDim ⟨2, ![N, 64]⟩ ![0, 1])
    (hr1 : (⟨1, ![64]⟩ : Shape).BroadcastsInDim ⟨2, ![1, 64]⟩ ![1])
    (hr2 : (⟨2, ![1, 64]⟩ : Shape).BroadcastsInDim ⟨2, ![N, 64]⟩ ![0, 1])
    (hz : (⟨0, ![]⟩ : Shape).BroadcastsInDim ⟨1, ![N]⟩ ![])
    (hrt : (⟨2, ![N, 64]⟩ : Shape).ReducesTo [1] ⟨1, ![N]⟩) (hred : (⟨2, ![N, 64]⟩ : Shape).Reduces [1] ⟨1, ![N]⟩)
    (hS : 0 < (⟨0, ![]⟩ : Shape).numel)
    (Y : FVec Ideal ⟨2, ![N, 64]⟩ .f32)
    (hY : Y = addf (F := Ideal) (φ := .f32) (mulf (F := Ideal) (φ := .f32) Z (broadcastInDim ⟨2, ![N, 64]⟩ ![0, 1] hbb (broadcastInDim ⟨2, ![N, 1]⟩ ![0] hb w)))
      (broadcastInDim ⟨2, ![N, 64]⟩ ![0, 1] hr2 (broadcastInDim ⟨2, ![1, 64]⟩ ![1] hr1 b)))
    (M : FVec Ideal ⟨1, ![N]⟩ .f32)
    (hM : M = maximumf (F := Ideal) (φ := .f32) (broadcastInDim ⟨1, ![N]⟩ ![] hz (constant (F := Ideal) ⟨0, ![]⟩ .f32 0xFF800000#32))
      (Host.reduce FloatOps.maximumf Y (constant (F := Ideal) ⟨0, ![]⟩ .f32 0xFF800000#32) hrt hS))
    (Y5 : FVec Ideal ⟨2, ![N, 64]⟩ .f32)
    (hY5 : Y5 = subf (F := Ideal) (φ := .f32) Y (broadcastInDim ⟨2, ![N, 64]⟩ ![0, 1] hbb (broadcastInDim ⟨2, ![N, 1]⟩ ![0] hb M)))
    (L : FVec Ideal ⟨2, ![N, 1]⟩ .f32)
    (hL : L = Host.log (F := Ideal) (φ := .f32) (broadcastInDim ⟨2, ![N, 1]⟩ ![0] hb
      (Host.reduceAdd (F := Ideal) (φ := .f32) (Host.exp (F := Ideal) (φ := .f32) Y5) (constant (F := Ideal) ⟨0, ![]⟩ .f32 0x00000000#32) hrt hS))) :
    outputs Z (shapeCast ⟨2, ![N, 1]⟩ w hc1) (shapeCast ⟨2, ![1, 64]⟩ b hc2)
      = subf (F := Ideal) (φ := .f32) Y5 (broadcastInDim ⟨2, ![N, 64]⟩ ![0, 1] hbb L) := by
  -- the host's scaled and biased row is the kernel's
  have hrow : ∀ (r : Fin N) (s : Fin 64), Y (ix2 r s) = scoreRow Z (shapeCast ⟨2, ![N, 1]⟩ w hc1) (shapeCast ⟨2, ![1, 64]⟩ b hc2) r s := by
    intro r s
    rw [hY]
    refine congrArg₂ (fun a b : EReal => a + b) (congrArg₂ (fun a b : EReal => a * b) rfl ?_) ?_
    · exact (HostColumn.column_apply w hb hbb r s).trans (ColumnLayout.shapeCast_a_a1_apply w hc1 r 0).symm
    · exact (HostColumn.row_apply b hr1 hr2 r s).trans (shapeCast_a_1a_apply b hc2 0 s).symm
  -- the host's row maximum, with its second maximum against −∞, is the row's maximum
  have hmax : ∀ r : Fin N, M (ix1 r) = rowMax (scoreRow Z (shapeCast ⟨2, ![N, 1]⟩ w hc1) (shapeCast ⟨2, ![1, 64]⟩ b hc2) r) := by
    intro r
    rw [hM]
    have h0 : Host.reduce FloatOps.maximumf Y (constant (F := Ideal) ⟨0, ![]⟩ .f32 0xFF800000#32) hrt hS (ix1 r)
        = (Finset.univ : Finset (Fin 64)).fold max (Ideal.ofBits .f32 0xFF800000#32)
            (scoreRow Z (shapeCast ⟨2, ![N, 1]⟩ w hc1) (shapeCast ⟨2, ![1, 64]⟩ b hc2) r) := by
      refine (Host.reduce_eq_fold_single FloatOps.maximumf Y _ hrt hred hS (ix1 r)).trans ?_
      refine congrArg (fun f => Finset.fold max (Ideal.ofBits .f32 0xFF800000#32) f (Finset.univ : Finset (Fin 64))) ?_
      funext s
      show Y (hred.lift (ix1 r) s) = _
      rw [lift_rowN hred r s]
      exact hrow r s
    show max (broadcastInDim ⟨1, ![N]⟩ ![] hz (constant (F := Ideal) ⟨0, ![]⟩ .f32 0xFF800000#32) (ix1 r))
      (Host.reduce FloatOps.maximumf Y (constant (F := Ideal) ⟨0, ![]⟩ .f32 0xFF800000#32) hrt hS (ix1 r)) = _
    rw [h0, broadcastInDim_apply _ hz _ (ix1 r) ix0 (fun a => a.elim0)]
    exact max_fold_max_self _ _ _
  -- the shifted row
  have hshift : ∀ (r : Fin N) (s : Fin 64), Y5 (ix2 r s)
      = scoreRow Z (shapeCast ⟨2, ![N, 1]⟩ w hc1) (shapeCast ⟨2, ![1, 64]⟩ b hc2) r s
        - rowMax (scoreRow Z (shapeCast ⟨2, ![N, 1]⟩ w hc1) (shapeCast ⟨2, ![1, 64]⟩ b hc2) r) := by
    intro r s
    rw [hY5]
    refine congrArg₂ (fun a b : EReal => a - b) (hrow r s) ?_
    exact (HostColumn.column_apply M hb hbb r s).trans (hmax r)
  funext y
  obtain ⟨r, j, rfl⟩ : ∃ (r : Fin N) (j : Fin 64), y = ix2 r j := ⟨y 0, y 1, eq_ix2 y⟩
  refine Eq.symm (congrArg₂ (fun a b : EReal => a - b) (hshift r j) ?_)
  refine (bcastInDim_ix2 (R := N) (w := 64) L hbb r j).trans ?_
  rw [hL]
  show Ideal.log _ = Ideal.log _
  refine congrArg Ideal.log ?_
  refine (column_at _ hb r).trans ?_
  simp only [Host.reduceAdd, Ideal.hostReduceAdd_def]
  rw [Ideal.hostReduceAdd_single hrt hred]
  show Ideal.ofBits .f32 0x00000000#32 + _ = _
  rw [Ideal.ofBits_zero_f32, zero_add]
  refine Finset.sum_congr rfl fun s _ => ?_
  rw [lift_rowN hred r s]
  exact congrArg Ideal.exp (hshift r s)

end Cert.Gcn

end
-- ==== Proof.RefBridge.lean ====
/-
  The two gridded kernels' functions are the reference's stages.

  `secondInput` (Body0) of the first aggregation, the first weights, the first bias as a one-row array, the two
  degree factors side by side and the second weights is the reference's second-layer product; `outputs` (Body1) of
  the second aggregation, the in-degree factor as a one-column array and the second bias as a one-row array is the
  reference's result. Both are instances of the statements over abstract arrays (HostLayers): the reference's stages
  are, by their definitions, the host's whole-array operations applied to earlier stages — its two contraction
  records being "rows times columns" — and the degree factors it recomputes for its second layer are the first
  ones, term for term.
-/
import proofs.«153941_j9234179686680_2_alg».proof.Proof.RefRead
import proofs.«153941_j9234179686680_2_alg».proof.Proof.HostLayers

set_option maxRecDepth 16384

noncomputable section

namespace Cert.Gcn

open Idealize.ShloMosaic Idealize.ShloMosaic.ValueIdx Cert.Dense
open Cert.ReferenceIdeal Cert.ReferenceIdeal.Read Cert.ReferenceIdeal.Facts₀

/-- The reference's two contraction records are "rows times columns". -/
theorem refRowsCols1 : RowsCols Cert.ReferenceIdeal.dot_S50000x128_S128x128_S50000x128_1_0_0_1_n_n :=
  ⟨rfl, rfl, fun _ _ => rfl, fun _ _ => rfl, fun _ _ => rfl, fun _ _ => rfl⟩
theorem refRowsCols2 : RowsCols Cert.ReferenceIdeal.dot_S50000x128_S128x64_S50000x64_1_0_0_1_n_n :=
  ⟨rfl, rfl, fun _ _ => rfl, fun _ _ => rfl, fun _ _ => rfl, fun _ _ => rfl⟩

variable (x0 : (⟨S50000x128, .f32⟩ : BufTy).Contents (Elt Ideal)) (x1 x2 : (⟨S800000, .i32⟩ : BufTy).Contents (Elt Ideal))
  (x3 : (⟨S128x128, .f32⟩ : BufTy).Contents (Elt Ideal)) (x4 : (⟨S128, .f32⟩ : BufTy).Contents (Elt Ideal))
  (x5 : (⟨S128x64, .f32⟩ : BufTy).Contents (Elt Ideal)) (x6 : (⟨S64, .f32⟩ : BufTy).Contents (Elt Ideal))

/-- THE FIRST KERNEL'S FUNCTION is the reference's second-layer product. -/
theorem secondInput_eq_ref (h4 : (⟨1, ![128]⟩ : Shape).ShapeCasts ⟨2, ![1, 128]⟩)
    (hb : (⟨1, ![50000]⟩ : Shape).BroadcastsInDim ⟨2, ![50000, 1]⟩ ![0])
    (hcat : Shape.Concatenates [(⟨2, ![50000, 1]⟩ : Shape), ⟨2, ![50000, 1]⟩] ⟨2, ![50000, 2]⟩ 1) :
    secondInput (val_main_v23 (F := Ideal) x0 x1 x2) x3 (shapeCast ⟨2, ![1, 128]⟩ (x4 : (⟨1, ![128]⟩ : Shape).Idx → EReal) h4)
      (concatenate (⟨2, ![50000, 2]⟩ : Shape) 1 [⟨⟨2, ![50000, 1]⟩, broadcastInDim ⟨2, ![50000, 1]⟩ ![0] hb (val_main_v26 (F := Ideal) x2)⟩,
        ⟨⟨2, ![50000, 1]⟩, broadcastInDim ⟨2, ![50000, 1]⟩ ![0] hb (val_main_v10 (F := Ideal) x1)⟩] hcat) x5
      = val_main_v48 (F := Ideal) x0 x1 x2 x3 x4 x5 :=
  (secondInput_eq_host (N := 50000) _ refRowsCols1 _ refRowsCols2 (val_main_v23 (F := Ideal) x0 x1 x2) x3 x4
    (val_main_v26 (F := Ideal) x2) (val_main_v10 (F := Ideal) x1) x5 h4 hb hcat
    bcast_S50000x1_S50000x128_0_1 bcast_S128_S1x128_1 bcast_S1x128_S50000x128_0_1 bcast_S_S50000x128).trans rfl

/-- THE SECOND KERNEL'S FUNCTION is the reference's result. -/
theorem outputs_eq_ref (h26 : (⟨1, ![50000]⟩ : Shape).ShapeCasts ⟨2, ![50000, 1]⟩) (h6 : (⟨1, ![64]⟩ : Shape).ShapeCasts ⟨2, ![1, 64]⟩) :
    outputs (val_main_v58 (F := Ideal) x0 x1 x2 x3 x4 x5)
      (shapeCast ⟨2, ![50000, 1]⟩ (val_main_v26 (F := Ideal) x2 : (⟨1, ![50000]⟩ : Shape).Idx → EReal) h26)
      (shapeCast ⟨2, ![1, 64]⟩ (x6 : (⟨1, ![64]⟩ : Shape).Idx → EReal) h6)
      = val_main_v67 (F := Ideal) x0 x1 x2 x3 x4 x5 x6 :=
  (outputs_eq_host (N := 50000) (val_main_v58 (F := Ideal) x0 x1 x2 x3 x4 x5) (val_main_v26 (F := Ideal) x2) x6 h26 h6
    bcast_S50000_S50000x1_0 bcast_S50000x1_S50000x64_0_1 bcast_S64_S1x64_1 bcast_S1x64_S50000x64_0_1 bcast_S_S50000
    reducesTo_S50000x64_S50000_d1 (by decide) h_S_
    (val_main_v66 (F := Ideal) x0 x1 x2 x3 x4 x5 x6) rfl
    (val_main_call5_v2 (F := Ideal) x0 x1 x2 x3 x4 x5 x6) rfl
    (val_main_call5_v5 (F := Ideal) x0 x1 x2 x3 x4 x5 x6) rfl
    (val_main_call5_v9 (F := Ideal) x0 x1 x2 x3 x4 x5 x6) rfl).trans rfl

end Cert.Gcn

end
-- ==== Proof.KernelValue.lean ====
/-
  The kernel program's result, as the reference's last stage of the arguments.

  The walk through the kernel program's segments (KernelRun) leaves the result array at a fold: the second launch's
  write-backs over what the second stretch of host operations leaves, over the first launch's write-backs, over what
  the first stretches leave. Opened from the inside out:
    * the first launch's inputs are reference stages of the arguments (HostValues1), and its output array is
      `secondInput` of them (FirstKernelValue), which is the reference's second-layer product (RefBridge);
    * the second stretch gathers that product along the edges' sources and sums it into their destinations — the
      reference's second aggregation, the same operations on the same operand — and lays the in-degree factor out as
      a one-column array;
    * the second launch's output array is `outputs` of those (SecondKernelValue), which is the reference's result
      (RefBridge).
-/
import proofs.«153941_j9234179686680_2_alg».proof.Proof.KernelRun
import proofs.«153941_j9234179686680_2_alg».proof.Proof.HostValues1
import proofs.«153941_j9234179686680_2_alg».proof.Proof.FirstKernelValue
import proofs.«153941_j9234179686680_2_alg».proof.Proof.SecondKernelValue
import proofs.«153941_j9234179686680_2_alg».proof.Proof.RefBridge

set_option maxRecDepth 16384

noncomputable section

namespace Cert.Gcn

open Idealize.ShloMosaic Idealize.ShloMosaic.TcCoe Idealize.ShloMosaic.StableHlo
open Idealize.SL Idealize.SL.Sem
open Cert.KernelIdeal Cert.KernelIdeal.Gen
open Cert.ReferenceIdeal.Read (val_main_v26 val_main_v48 val_main_v58 val_main_v67)

variable (m : (ℓ : Loc nD τ sig) → Buf (Elt Ideal) ℓ) (ρ : Dev nD → PrngReg) (c : Dev nD)

set_option quotPrecheck false

local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)

/-- After the first launch its output array holds the reference's second-layer product. -/
theorem after_first : W6 m ρ c (Proc.devRef .tc main_v33) = val_main_v48 (F := Ideal) x0 x1 x2 x3 x4 x5 := by
  refine (show W6 m ρ c (Proc.devRef .tc main_v33) = (dat0 (V5 m ρ) c).arrAt 5 cfg0.N from W6_arr m ρ c 5).trans ?_
  rw [final0 (V5 m ρ) c]
  show secondInput (W5 m ρ c (Proc.devRef .tc main_v29)) (W5 m ρ c (Proc.devRef .tc main_arg3)) (W5 m ρ c (Proc.devRef .tc main_v13))
    (W5 m ρ c (Proc.devRef .tc main_v32)) (W5 m ρ c (Proc.devRef .tc main_arg5)) = _
  rw [entry_agg1, entry_arg3, entry_bias1, entry_scales, entry_arg5]
  exact secondInput_eq_ref _ _ _ _ _ _ _ _ _

set_option maxHeartbeats 4000000 in
/-- The second aggregation. -/
theorem second_agg : W7 m ρ c (Proc.devRef .tc main_v45) = val_main_v58 (F := Ideal) x0 x1 x2 x3 x4 x5 := by
  show after hostOps1 (W6 m ρ c) (Proc.devRef .tc main_v45) = _
  simp only [hostOps1]
  after_results_simp
  rw [after_first, W6_of_ne m ρ c main_arg1 (by decide), W6_of_ne m ρ c main_arg2 (by decide), entry_arg1, entry_arg2]
  rfl

/-- The in-degree factor as a one-column array. -/
theorem second_scale : W7 m ρ c (Proc.devRef .tc main_v46)
    = shapeCast S50000x1 (val_main_v26 (F := Ideal) x2 : S50000.Idx → EReal) shapeCasts_S50000_S50000x1 := by
  show after hostOps1 (W6 m ρ c) (Proc.devRef .tc main_v46) = _
  simp only [hostOps1]
  after_results_simp
  rw [W6_of_ne m ρ c main_v12 (by decide), entry_invIn]
  rfl

/-- The second bias as a one-row array, untouched since the first stretches. -/
theorem second_bias : W7 m ρ c (Proc.devRef .tc main_v14) = shapeCast S1x64 (x6 : S64.Idx → EReal) shapeCasts_S64_S1x64 := by
  show after hostOps1 (W6 m ρ c) (Proc.devRef .tc main_v14) = _
  simp only [hostOps1]
  after_results_simp
  rw [W6_of_ne m ρ c main_v14 (by decide), entry_bias2]

/-- THE RESULT ARRAY after the kernel program's run is the reference's last stage of the arguments. -/
theorem result_value : W8 m ρ c (Proc.devRef .tc main_v47) = val_main_v67 (F := Ideal) x0 x1 x2 x3 x4 x5 x6 := by
  refine (show W8 m ρ c (Proc.devRef .tc main_v47) = (dat1 (V7 m ρ) c).arrAt 3 cfg1.N from W8_arr m ρ c 3).trans ?_
  rw [final1 (V7 m ρ) c]
  show outputs (W7 m ρ c (Proc.devRef .tc main_v45)) (W7 m ρ c (Proc.devRef .tc main_v46)) (W7 m ρ c (Proc.devRef .tc main_v14)) = _
  rw [second_agg, second_scale, second_bias]
  exact outputs_eq_ref _ _ _ _ _ _ _ _ _

end Cert.Gcn

end
-- ==== Proof.lean ====
/-
  The certificate: a two-layer graph convolution (degree-normalised aggregation over the edges, a dense layer with
  bias and rectifier, a second dense layer, a second aggregation, bias, row-wise log-softmax) computed by a program
  with two gridded kernels among host gathers and scatter-adds, against the plain reference.

  On the extended reals the two programs compute the same function of the arguments, operation for operation and
  in the same order: the host parts are printed identically (the kernel program's casts to a narrower float format
  are the identity there), the first kernel's two matrix-unit products are the reference's two `dot_general`s with
  the scaling, bias and rectifier between them, and the second kernel's lane reductions are the reference's row
  maximum and row sum of its log-softmax. No algebraic law that needs finite entries is used, so the precondition is
  never opened. The three frames are the generated walks of the two kernel programs and the reference's run read
  back stretch by stretch; nothing was rewritten by the idealization, so its conjunct is `True`.
-/
import proofs.«153941_j9234179686680_2_alg».proof.Defs
import proofs.«153941_j9234179686680_2_alg».proof.Proof.Gen.Kernel
import proofs.«153941_j9234179686680_2_alg».proof.Proof.Gen.Kernel.Skeleton
import proofs.«153941_j9234179686680_2_alg».proof.Proof.Gen.Kernel.Launch
import proofs.«153941_j9234179686680_2_alg».proof.Proof.Gen.Kernel.Points
import proofs.«153941_j9234179686680_2_alg».proof.Proof.Gen.Kernel.Frame
import proofs.«153941_j9234179686680_2_alg».proof.Proof.Gen.KernelIdeal
import proofs.«153941_j9234179686680_2_alg».proof.Proof.Gen.KernelIdeal.Skeleton
import proofs.«153941_j9234179686680_2_alg».proof.Proof.Gen.KernelIdeal.Launch
import proofs.«153941_j9234179686680_2_alg».proof.Proof.Gen.KernelIdeal.Points
import proofs.«153941_j9234179686680_2_alg».proof.Proof.Gen.KernelIdeal.Frame
import proofs.«153941_j9234179686680_2_alg».proof.Proof.Gen.ReferenceIdeal
import proofs.«153941_j9234179686680_2_alg».proof.Proof.Gen.Pre_finite_inputs
import proofs.«153941_j9234179686680_2_alg».proof.Proof.ReferenceRun
import proofs.«153941_j9234179686680_2_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Stretches.run (F := Ideal) m ρ)

/-- Run from memories that agree on the arguments, both programs end with the result array at the reference's last
    stage of those arguments. -/
theorem algebraic : Cert.algebraic_KernelIdeal_ReferenceIdeal := by
  intro m ρ m' ρ' _ hagree
  refine ⟨fun c => Cert.KernelIdeal.Gen.W8 m ρ c (Proc.devRef .tc Cert.KernelIdeal.main_v47),
    Cert.KernelIdeal.Result.run (F := Ideal) m ρ, ?_⟩
  refine (θ_run Cert.ReferenceIdeal.defs _ _).mono (fun _ h c => ⟨(h c).1.trans ?_, (h c).2⟩)
    (Cert.ReferenceIdeal.Stretches.run (F := Ideal) m' ρ')
  obtain ⟨e0, e1, e2, e3, e4, e5, e6⟩ := hagree c
  rw [e0, e1, e2, e3, e4, e5, e6]
  exact (Cert.Gcn.result_value m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
